-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4097x768 : Shape := ⟨3, ![64, 4097, 768]⟩
abbrev S768 : Shape := ⟨1, ![768]⟩
abbrev S_ : Shape := ⟨0, ![]⟩

class Facts : Prop where
  bcast_S_S64x4097x768 : S_.BroadcastsInDim S64x4097x768 (![] : Fin 0 → Fin S64x4097x768.rank)
  reducesTo_S64x4097x768_S_d0_1_2 : S64x4097x768.ReducesTo [0, 1, 2] S_
  h_S_ : 0 < S_.numel
  bcast_S_S768 : S_.BroadcastsInDim S768 (![] : Fin 0 → Fin S768.rank)
  reducesTo_S768_S_d0 : S768.ReducesTo [0] S_

variable [Facts]

def fn {F : FTy → Type} [FloatOps F] (main_arg0 : FVec F S64x4097x768 .f32) (main_arg1 : IVec S768 32) : IVec S_ 1 :=
  let main_v0 : FVec F S64x4097x768 .f32 := Host.absf main_arg0
  let main_cst : FVec F S_ .f32 := constant S_ .f32 0x7F800000#32
  let main_v1 : FVec F S64x4097x768 .f32 := broadcastInDim S64x4097x768 ![] bcast_S_S64x4097x768 main_cst
  let main_v2 : IVec S64x4097x768 1 := cmpf .olt main_v0 main_v1
  let main_c : IVec S_ 1 := constantI S_ 1 1#1
  let main_v3 : IVec S_ 1 := (fun x v => Host.reduce IntOp.andi x v reducesTo_S64x4097x768_S_d0_1_2 h_S_) main_v2 main_c
  let main_c_0 : IVec S_ 32 := constantI S_ 32 0#32
  let main_v4 : IVec S768 32 := broadcastInDim S768 ![] bcast_S_S768 main_c_0
  let main_v5 : IVec S768 1 := cmpi .sge main_arg1 main_v4
  let main_c_1 : IVec S_ 1 := constantI S_ 1 1#1
  let main_v6 : IVec S_ 1 := (fun x v => Host.reduce IntOp.andi x v reducesTo_S768_S_d0 h_S_) main_v5 main_c_1
  let main_v7 : IVec S_ 1 := andi main_v3 main_v6
  let main_c_2 : IVec S_ 32 := constantI S_ 32 4096#32
  let main_v8 : IVec S768 32 := broadcastInDim S768 ![] bcast_S_S768 main_c_2
  let main_v9 : IVec S768 1 := cmpi .slt main_arg1 main_v8
  let main_c_3 : IVec S_ 1 := constantI S_ 1 1#1
  let main_v10 : IVec S_ 1 := (fun x v => Host.reduce IntOp.andi x v reducesTo_S768_S_d0 h_S_) main_v9 main_c_3
  let main_v11 : IVec S_ 1 := andi main_v7 main_v10
  main_v11
-- ==== Kernel.lean ====
abbrev S64x4097x768 : Shape := ⟨3, ![64, 4097, 768]⟩
abbrev S768 : Shape := ⟨1, ![768]⟩
abbrev S_ : Shape := ⟨0, ![]⟩
abbrev S1x768 : Shape := ⟨2, ![1, 768]⟩
abbrev S64x768 : Shape := ⟨2, ![64, 768]⟩
abbrev S8x512x768 : Shape := ⟨3, ![8, 512, 768]⟩
abbrev S8x768 : Shape := ⟨2, ![8, 768]⟩
abbrev S1x1x768 : Shape := ⟨3, ![1, 1, 768]⟩

abbrev nBuf : Space → Nat
  | .hbm => 7
  | .vmem => 6
  | .smem => 0
  | _ => 0

abbrev bufTy : (tb : Table) → Fin (tcTables nBuf tb) → BufTy
  | .hbm, ⟨0, _⟩ => ⟨S64x4097x768, .f32⟩
  | .hbm, ⟨1, _⟩ => ⟨S768, .i32⟩
  | .hbm, ⟨2, _⟩ => ⟨S_, .i32⟩
  | .hbm, ⟨3, _⟩ => ⟨S768, .i32⟩
  | .hbm, ⟨4, _⟩ => ⟨S768, .i32⟩
  | .hbm, ⟨5, _⟩ => ⟨S1x768, .i32⟩
  | .hbm, ⟨6, _⟩ => ⟨S64x768, .f32⟩
  | .local _ .vmem, ⟨0, _⟩ => ⟨S1x768, .i32⟩
  | .local _ .vmem, ⟨1, _⟩ => ⟨S8x512x768, .f32⟩
  | .local _ .vmem, ⟨2, _⟩ => ⟨S8x512x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | _, _ => ⟨S64x4097x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c8_i32 : BitVec 32 := 8#32
  let v21 : BitVec 1 := Scalar.cmpi .eq arg1 c8_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S768 : S_.BroadcastsInDim S768 (![] : Fin 0 → Fin S768.rank)
  shapeCasts_S768_S1x768 : S768.ShapeCasts S1x768
  inb_S8x768_S8x768_0_0 : ∀ a, (![0, 0] : Fin 2 → Nat) a + S8x768.size a ≤ S8x768.size a
  h_S8x768 : 0 < S8x768.numel
  shapeCasts_S8x768_S8x768 : S8x768.ShapeCasts S8x768
  iota_S8x512x768_d1_w32 : S8x512x768.Iotas .tc 32 [1]
  inb_S1x768_S1x768_0_0 : ∀ a, (![0, 0] : Fin 2 → Nat) a + S1x768.size a ≤ S1x768.size a
  h_S1x768 : 0 < S1x768.numel
  shapeCasts_S1x768_S1x768 : S1x768.ShapeCasts S1x768
  shapeCasts_S1x768_S1x1x768 : S1x768.ShapeCasts S1x1x768
  broadcasts_S1x1x768_S8x512x768 : S1x1x768.Broadcasts S8x512x768
  inb_S8x512x768_S8x512x768_0_0_0 : ∀ a, (![0, 0, 0] : Fin 3 → Nat) a + S8x512x768.size a ≤ S8x512x768.size a
  h_S8x512x768 : 0 < S8x512x768.numel
  reduces_S8x512x768_S8x768 : S8x512x768.Reduces [1] S8x768
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x768.size a ≤ S1x768.size a
  hwx0_0 : ∀ i : grid0.Coords, EltTy.bits .i32 = 32 ∨ (Rect.block (s := S1x768) S1x768.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8x512x768.size a < S64x4097x768.size a
  hwx0_1 : ∀ i : grid0.Coords, EltTy.bits .f32 = 32 ∨ (Rect.unit (s := S64x4097x768) (fun a => cc0_transform_1 i a * S8x512x768.size a) (fun a => (Pipeline.Clip.of (cc0_transform_1 i a) (S8x512x768.size a) (S64x4097x768.size a)).extent (S8x512x768.size a)) fun a => Pipeline.Clip.inb (Pipeline.Clip.ok_of (hstart0_1 i a))).WholeWords (EltTy.packing .f32)
  hwxs0_1 : ∀ i : grid0.Coords, EltTy.bits .f32 = 32 ∨ (Rect.unit (s := S8x512x768) (fun _ => 0) (fun a => (Pipeline.Clip.of (cc0_transform_1 i a) (S8x512x768.size a) (S64x4097x768.size a)).extent (S8x512x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x768.size a ≤ S64x768.size a
  hwx0_2 : ∀ i : grid0.Coords, EltTy.bits .f32 = 32 ∨ (Rect.block (s := S64x768) S8x768.size (cc0_transform_2 i) (hinb0_2 i)).WholeWords (EltTy.packing .f32)

variable [Facts₀]

abbrev win0_0 : Pipeline.Window sig grid0 :=
  Pipeline.Window.ofSpec (Memref.whole main_v2) S1x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg0) S8x512x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v3) S8x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x4097x768 : Shape := ⟨3, ![64, 4097, 768]⟩
abbrev S768 : Shape := ⟨1, ![768]⟩
abbrev S64x4096x768 : Shape := ⟨3, ![64, 4096, 768]⟩
abbrev S_ : Shape := ⟨0, ![]⟩
abbrev S768x1 : Shape := ⟨2, ![768, 1]⟩
abbrev S768x2 : Shape := ⟨2, ![768, 2]⟩
abbrev S64x768 : Shape := ⟨2, ![64, 768]⟩

abbrev nBuf : Space → Nat
  | .hbm => 22
  | .vmem => 0
  | .smem => 0
  | _ => 0

abbrev bufTy : (tb : Table) → Fin (tcTables nBuf tb) → BufTy
  | .hbm, ⟨0, _⟩ => ⟨S64x4097x768, .f32⟩
  | .hbm, ⟨1, _⟩ => ⟨S768, .i32⟩
  | .hbm, ⟨2, _⟩ => ⟨S64x4096x768, .f32⟩
  | .hbm, ⟨3, _⟩ => ⟨S768, .i32⟩
  | .hbm, ⟨4, _⟩ => ⟨S_, .i32⟩
  | .hbm, ⟨5, _⟩ => ⟨S768, .i32⟩
  | .hbm, ⟨6, _⟩ => ⟨S768, .i1⟩
  | .hbm, ⟨7, _⟩ => ⟨S_, .i32⟩
  | .hbm, ⟨8, _⟩ => ⟨S768, .i32⟩
  | .hbm, ⟨9, _⟩ => ⟨S768, .i32⟩
  | .hbm, ⟨10, _⟩ => ⟨S768, .i32⟩
  | .hbm, ⟨11, _⟩ => ⟨S_, .i32⟩
  | .hbm, ⟨12, _⟩ => ⟨S768, .i32⟩
  | .hbm, ⟨13, _⟩ => ⟨S768, .i1⟩
  | .hbm, ⟨14, _⟩ => ⟨S_, .i32⟩
  | .hbm, ⟨15, _⟩ => ⟨S768, .i32⟩
  | .hbm, ⟨16, _⟩ => ⟨S768, .i32⟩
  | .hbm, ⟨17, _⟩ => ⟨S768, .i32⟩
  | .hbm, ⟨18, _⟩ => ⟨S768x1, .i32⟩
  | .hbm, ⟨19, _⟩ => ⟨S768x1, .i32⟩
  | .hbm, ⟨20, _⟩ => ⟨S768x2, .i32⟩
  | .hbm, ⟨21, _⟩ => ⟨S64x768, .f32⟩
  | _, _ => ⟨S64x4097x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  slices_S64x4097x768_S64x4096x768_0_1_0 : S64x4097x768.Slices ![0, 1, 0] S64x4096x768
  bcast_S_S768 : S_.BroadcastsInDim S768 (![] : Fin 0 → Fin S768.rank)
  bcast_S768_S768x1_0 : S768.BroadcastsInDim S768x1 (![0] : Fin 1 → Fin S768x1.rank)
  concatenates_S768x1_S768x1_S768x2_d1 : Shape.Concatenates [S768x1, S768x1] S768x2 1
  gather_S64x4096x768_S768x2_S64x768_0_12_n_n_12_1_6411_wf : GatherDims.WF S64x4096x768 S768x2 S64x768 [0] [1, 2] [] [1, 2] [] 1 ![64, 1, 1]

variable [Facts₀]

def gather_S64x4096x768_S768x2_S64x768_0_12_n_n_12_1_6411 : GatherDims S64x4096x768 S768x2 S64x768 where
  offsetDims := [0]
  collapsedSliceDims := [1, 2]
  operandBatchingDims := []
  startIndicesBatchingDims := []
  startIndexMap := [1, 2]
  indexVectorDim := 1
  sliceSizes := ![64, 1, 1]
  wf := gather_S64x4096x768_S768x2_S64x768_0_12_n_n_12_1_6411_wf

class Facts : Prop extends Facts₀ where

variable [Facts]
-- ==== Proof.StepsKernel.lean ====
import proofs.«139204_j86354612453674_1_alg».proof.Proof.Gen.Kernel.Frame
import proofs.«139204_j86354612453674_1_alg».proof.Proof.Gen.Kernel.Skeleton
import Idealize.ShloMosaic.Lib.Pipeline.Kit
import Idealize.ShloMosaic.Lib.Tactic
import Idealize.ShloMosaic.Lib.Pipeline.Value
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two conditions of the body, in closed form over the grid

The grid is 8 × 9, the second coordinate the tile of the sequence axis. The body zeroes its accumulator where that
coordinate is 0 and copies it to the output block where it is 8. -/

/-- The accumulator is reset: the sequence tile is the first. -/
abbrev cond1 (i : grid0.Coords) : Prop := (Scalar.cmpi .ne (Scalar.extui (Scalar.cmpi .eq (BitVec.ofNat 32 (i 1).val) 0#32)) 0#32) = 1#1
/-- The accumulator is copied out: the sequence tile is the last. -/
abbrev cond2 (i : grid0.Coords) : Prop := k0_cond2 i = 1#1

theorem hcond1 : ∀ t : Fin cfg0.N, cond1 (grid0.coords t) ↔ t.val % 9 = 0 :=
  (by decide +kernel : ∀ t : Fin grid0.N, cond1 (grid0.coords t) ↔ t.val % 9 = 0)
theorem hcond2 : ∀ t : Fin cfg0.N, cond2 (grid0.coords t) ↔ t.val % 9 = 8 :=
  (by decide +kernel : ∀ t : Fin grid0.N, cond2 (grid0.coords t) ↔ t.val % 9 = 8)

theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole buffer covers it, -/
theorem cover_one {Val : EltTy → Type} {S : Shape} {e : EltTy} {off : Fin S.rank → Nat} (h : off = fun _ => 0)
    (inb : ∀ a, off a + S.size a ≤ S.size a) (w : S.Idx → Val e) :
    ∀ y, ∃ p ∈ [(⟨Rect.unit off S.size inb, w⟩ : View.Piece Val S e)], y ∈ p.1.set :=
  fun y => ⟨_, List.mem_singleton_self _, View.mem_set_unit_zero h inb y⟩
/-- and so does the last of several. -/
theorem cover_head {Val : EltTy → Type} {S : Shape} {e : EltTy} {off : Fin S.rank → Nat} (h : off = fun _ => 0)
    (inb : ∀ a, off a + S.size a ≤ S.size a) (w : S.Idx → Val e) (L : List (View.Piece Val S e)) :
    ∀ y, ∃ p ∈ ((⟨Rect.unit off S.size inb, w⟩ : View.Piece Val S e) :: L), y ∈ p.1.set :=
  fun y => ⟨_, List.mem_cons_self, View.mem_set_unit_zero h inb y⟩

/-! ## One step of the body, case by case

Every access is the whole buffer, so a load reads the contents and the last store leaves its payload. With `x0` the
index row, `x1` the staged tile and `xs` the accumulator, a step leaves the accumulator at `k0_pay2 i x0 x1 xs`
(at the first tile `xs` is first replaced by zeros, `k0_pay1`), and at the last tile the output block at the same. -/

/-- A middle tile: the accumulator is added to; the output block is not touched. -/
theorem step_mid (c : Dev nD) (i : grid0.Coords) (arg2 : Memref sig .tc .vmem S1x768 .i32) (harg2 : arg2.IsWhole)
    (arg3 : Memref sig .tc .vmem S8x512x768 .f32) (harg3 : arg3.IsWhole) (arg4 : Memref sig .tc .vmem S8x768 .f32) (harg4 : arg4.IsWhole)
    (arg5 : Memref sig .tc .vmem S8x768 .f32) (harg5 : arg5.IsWhole) (hc1 : ¬cond1 i) (hc2 : ¬cond2 i)
    (x0 : Vec F S1x768 .i32) (x1 : Vec F S8x512x768 .f32) (xo : Vec F S8x768 .f32) (xs : Vec F S8x768 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 i x0 x1 xs)) -∗ K ⟨⟩))
      ⊢ wp frame (wpE (defs₀ (F := F)) Variants.none c none) E (cc0__embrace_kernel i arg2 harg2 arg3 harg3 arg4 harg4 arg5 harg5) K := by
  simp only [cc0__embrace_kernel_eq_skeleton]; unfold cc0__embrace_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  try sl_unfold_words
  rw [View.read_writes_eq_canon _ _ _ (cover_one hz2 _ _), View.canon_unit_zero hz2]
  simp only [View.readAt_eq_ld, harg2.read_unread, harg3.read_unread, harg5.read_unread, View.ld_unit_zero (S := S1x768) hz2,
    View.ld_unit_zero (S := S8x768) hz2, View.ld_unit_zero (S := S8x512x768) hz3]

/-- The first tile: the accumulator, whatever it held, is zeroed and then added to; the output block is not touched. -/
theorem step_first (c : Dev nD) (i : grid0.Coords) (arg2 : Memref sig .tc .vmem S1x768 .i32) (harg2 : arg2.IsWhole)
    (arg3 : Memref sig .tc .vmem S8x512x768 .f32) (harg3 : arg3.IsWhole) (arg4 : Memref sig .tc .vmem S8x768 .f32) (harg4 : arg4.IsWhole)
    (arg5 : Memref sig .tc .vmem S8x768 .f32) (harg5 : arg5.IsWhole) (hc1 : cond1 i) (hc2 : ¬cond2 i)
    (x0 : Vec F S1x768 .i32) (x1 : Vec F S8x512x768 .f32) (xo : Vec F S8x768 .f32) (xs : Vec F S8x768 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 i x0 x1 (k0_pay1 (F := F)))) -∗ K ⟨⟩))
      ⊢ wp frame (wpE (defs₀ (F := F)) Variants.none c none) E (cc0__embrace_kernel i arg2 harg2 arg3 harg3 arg4 harg4 arg5 harg5) K := by
  simp only [cc0__embrace_kernel_eq_skeleton]; unfold cc0__embrace_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  try sl_unfold_words
  rw [View.read_writes_eq_canon _ _ _ (cover_head hz2 _ _ _), View.canon_cons_unit_zero hz2]
  simp only [View.readAt_eq_ld, harg2.read_unread, harg3.read_unread, harg5.read_unread, View.ld_unit_zero (S := S1x768) hz2,
    View.ld_unit_zero (S := S8x768) hz2, View.ld_unit_zero (S := S8x512x768) hz3, View.readCov_unit_zero (S := S8x768) _ hz2]

/-- The last tile: the accumulator is added to, and the output block, whatever it held, ends holding the accumulator. -/
theorem step_last (c : Dev nD) (i : grid0.Coords) (arg2 : Memref sig .tc .vmem S1x768 .i32) (harg2 : arg2.IsWhole)
    (arg3 : Memref sig .tc .vmem S8x512x768 .f32) (harg3 : arg3.IsWhole) (arg4 : Memref sig .tc .vmem S8x768 .f32) (harg4 : arg4.IsWhole)
    (arg5 : Memref sig .tc .vmem S8x768 .f32) (harg5 : arg5.IsWhole) (hc1 : ¬cond1 i) (hc2 : cond2 i)
    (x0 : Vec F S1x768 .i32) (x1 : Vec F S8x512x768 .f32) (xo : Vec F S8x768 .f32) (xs : Vec F S8x768 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 i x0 x1 xs)
            ∗ owns (c : Thread nD τ) arg5 fullShare (k0_pay2 i x0 x1 xs)) -∗ K ⟨⟩))
      ⊢ wp frame (wpE (defs₀ (F := F)) Variants.none c none) E (cc0__embrace_kernel i arg2 harg2 arg3 harg3 arg4 harg4 arg5 harg5) K := by
  simp only [cc0__embrace_kernel_eq_skeleton]; unfold cc0__embrace_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    try sl_unfold_words
    rw [View.read_writes_eq_canon _ _ _ (cover_one hz2 _ _), View.canon_unit_zero hz2]
    simp only [View.readAt_eq_ld, harg2.read_unread, harg3.read_unread, harg5.read_unread, View.ld_unit_zero (S := S1x768) hz2,
      View.ld_unit_zero (S := S8x768) hz2, View.ld_unit_zero (S := S8x512x768) hz3, View.readCov_unit_zero (S := S8x768) _ hz2]
  iexists _; isplitr
  swap; · iexact HS
  ipureintro
  try sl_unfold_words
  rw [View.read_writes_eq_canon _ _ _ (cover_one hz2 _ _), View.canon_unit_zero hz2]
  simp only [View.readAt_eq_ld, harg2.read_unread, harg3.read_unread, harg5.read_unread, View.ld_unit_zero (S := S1x768) hz2,
    View.ld_unit_zero (S := S8x768) hz2, View.ld_unit_zero (S := S8x512x768) hz3]

end Cert.Kernel.Body
end
-- ==== Proof.TileMask.lean ====
import Idealize.ShloMosaic.Lib.Pipeline.Value
import Idealize.ShloMosaic.Lib.ValueIdx
import Idealize.ShloMosaic.PureOps

noncomputable section

/-! # The position mask of one sequence tile

A tile is 8 batch rows × 512 sequence positions × 768 lanes. Tile number `si` covers the positions
`si·512 … si·512 + 511` of the sequence axis. The body compares the position of each element with the lane's entry of
the (shifted) index row, so an element at `(b, s, l)` is selected exactly when `si·512 + s = row[l]`. The row's
entries are at most 4096 (the shifted index of a token among 4096), so a selected element is a position of the
array, never one of the 511 positions by which the last tile overhangs the 4097 the array has. -/

namespace Cert.TileMask

open Idealize.ShloMosaic

abbrev Tile : Shape := ⟨3, ![8, 512, 768]⟩
abbrev Row : Shape := ⟨2, ![1, 768]⟩
abbrev Row3 : Shape := ⟨3, ![1, 1, 768]⟩

/-- Lane `l` of the one-row index array. -/
abbrev lane (l : Fin 768) : Row.Idx := ValueIdx.ix2 (⟨0, by decide⟩ : Fin 1) l

/-- The index row, viewed [1, 1, 768] and broadcast over the tile, read at an element: its lane's entry. -/
theorem row_over_tile (x0 : Row.Idx → BitVec 32) (h1 : Row.ShapeCasts Row) (h2 : Row.ShapeCasts Row3) (h3 : Row3.Broadcasts Tile)
    (j : Tile.Idx) :
    broadcastTo Tile (shapeCast Row3 (shapeCast Row x0 h1) h2) h3 j = x0 (lane (j 2)) := by
  rw [shapeCast_self]
  rw [broadcastTo_apply _ h3 j (ValueIdx.ix3 (⟨0, by decide⟩ : Fin 1) (⟨0, by decide⟩ : Fin 1) (j 2)) (fun a => by
    match a with
    | ⟨0, _⟩ => rfl
    | ⟨1, _⟩ => rfl
    | ⟨2, _⟩ => rfl)]
  rw [shapeCast_addUnit_apply]
  refine congrArg x0 (funext fun a => Fin.ext ?_)
  match a with
  | ⟨0, _⟩ => rfl
  | ⟨1, _⟩ => rfl

theorem ofBool_eq_one (b : Bool) : BitVec.ofBool b = 1#1 ↔ b = true := by cases b <;> decide

/-- Two words compare equal exactly when they are equal. -/
theorem cmpi_eq_one_iff (a b : BitVec 32) : IntOp.cmpi .eq a b = 1#1 ↔ a = b := by
  unfold IntOp.cmpi; rw [ofBool_eq_one]; simp

/-- The mask of tile `si` at an element, as a comparison of words: the element's position against its lane's entry. -/
theorem mask_apply (si : Nat) (x0 : Row.Idx → BitVec 32) (hi : Tile.Iotas .tc 32 [1]) (h1 : Row.ShapeCasts Row)
    (h2 : Row.ShapeCasts Row3) (h3 : Row3.Broadcasts Tile) (j : Tile.Idx) :
    cmpi .eq (addi (broadcast Tile (Scalar.muli (BitVec.ofNat 32 si) 512#32)) (iota .tc Tile 32 [1] hi))
        (broadcastTo Tile (shapeCast Row3 (shapeCast Row x0 h1) h2) h3) j
      = IntOp.cmpi .eq (BitVec.ofNat 32 si * 512#32 + BitVec.ofNat 32 (j 1).val) (x0 (lane (j 2))) := by
  unfold cmpi addi
  rw [row_over_tile, iota_single_apply]
  rfl

/-- The position of element `s` of tile `si < 9`, as a word, is the number `si·512 + s`. -/
theorem pos_toNat (si : Nat) (hsi : si < 9) (s : Fin 512) :
    (BitVec.ofNat 32 si * 512#32 + BitVec.ofNat 32 s.val).toNat = si * 512 + s.val := by
  have hs := s.isLt
  simp only [BitVec.toNat_add, BitVec.toNat_mul, BitVec.toNat_ofNat]
  have e1 : si % 2 ^ 32 = si := Nat.mod_eq_of_lt (by omega)
  have e2 : s.val % 2 ^ 32 = s.val := Nat.mod_eq_of_lt (by omega)
  have e3 : (512 : Nat) % 2 ^ 32 = 512 := by decide
  rw [e1, e2, e3, Nat.mod_eq_of_lt (a := si * 512) (by omega), Nat.mod_eq_of_lt (by omega)]

/-- The element of tile `si` at `j` is selected exactly when its position is its lane's entry. -/
theorem selected_iff (si : Nat) (hsi : si < 9) (x0 : Row.Idx → BitVec 32) (j : Tile.Idx) :
    IntOp.cmpi .eq (BitVec.ofNat 32 si * 512#32 + BitVec.ofNat 32 (j 1).val) (x0 (lane (j 2))) = 1#1
      ↔ si * 512 + (j 1).val = (x0 (lane (j 2))).toNat := by
  rw [cmpi_eq_one_iff]
  constructor
  · intro h; rw [← h]; exact (pos_toNat si hsi (j 1)).symm
  · intro h; apply BitVec.eq_of_toNat_eq; rw [pos_toNat si hsi (j 1)]; exact h

end Cert.TileMask

end
-- ==== Proof.DataKernel.lean ====
import proofs.«139204_j86354612453674_1_alg».proof.Proof.Gen.Kernel.Frame
import proofs.«139204_j86354612453674_1_alg».proof.Proof.Gen.Kernel.Skeleton
import Idealize.ShloMosaic.Lib.Pipeline.Kit
import Idealize.ShloMosaic.Lib.Tactic
import proofs.«139204_j86354612453674_1_alg».proof.Proof.StepsKernel
import proofs.«139204_j86354612453674_1_alg».proof.Proof.TileMask
set_option maxRecDepth 16384

noncomputable section

namespace Cert.Kernel.Body

open Cert.TileMask (lane)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs the body is called with -/

abbrev ms0 (t : Fin cfg0.N) : Memref sig .tc .vmem S1x768 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x768 .f32 := win0_2.stage (cfg0.slots t 2)
abbrev hs2 (t : Fin cfg0.N) : (ms2 t).IsWhole := hstage0_2 ((cfg0.slots t 2).cast nbuf0_2)
/-- The accumulator: the kernel's one scratch buffer. -/
abbrev scM : Memref sig .tc .vmem S8x768 .f32 := Memref.whole cc0_scratch0

/-- Between launches the region holds the accumulator at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## One step, as mask, masked tile and lane sums -/

/-- The mask of the tile at grid coordinates `i`: position against the lane's row entry. -/
def tmask (i : grid0.Coords) (x0 : Vec F S1x768 .i32) : IVec S8x512x768 1 :=
  cmpi .eq (addi (broadcast S8x512x768 (Scalar.muli (BitVec.ofNat 32 (i 1).val) 512#32)) (iota .tc S8x512x768 32 [1] iota_S8x512x768_d1_w32))
    (broadcastTo S8x512x768 (shapeCast S1x1x768 (shapeCast S1x768 x0 shapeCasts_S1x768_S1x768) shapeCasts_S1x768_S1x1x768) broadcasts_S1x1x768_S8x512x768)

/-- The tile with every unselected element replaced by zero. -/
def picked (i : grid0.Coords) (x0 : Vec F S1x768 .i32) (x1 : Vec F S8x512x768 .f32) : Vec F S8x512x768 .f32 :=
  select (tmask i x0) x1 (broadcast S8x512x768 (Scalar.ofBits .f32 0x00000000#32))

/-- The accumulator plus the sums of a tile along the sequence axis. -/
def addTile (v : Vec F S8x512x768 .f32) (a : Vec F S8x768 .f32) : FVec F S8x768 .f32 :=
  shapeCast S8x768 (addf a (multiReduction .add [1] S8x768 v 0x00000000#32 reduces_S8x512x768_S8x768 (.inl rfl) rfl)) shapeCasts_S8x768_S8x768

theorem pay2_eq (i : grid0.Coords) (x0 : Vec F S1x768 .i32) (x1 : Vec F S8x512x768 .f32) (a : Vec F S8x768 .f32) :
    k0_pay2 i x0 x1 a = addTile (picked i x0 x1) a := rfl

/-! ## The overhang is never selected

Along the sequence axis the part of the tile at point `t` that lies inside the array ends at position 4097. -/

theorem xsize_facts : ∀ t : Fin cfg0.N, win0_1.xsize (grid0.coords t) 0 = 8 ∧ win0_1.xsize (grid0.coords t) 2 = 768
    ∧ ((grid0.coords t 1).val * 512 + win0_1.xsize (grid0.coords t) 1 = min 4097 ((grid0.coords t 1).val * 512 + 512))
    ∧ (grid0.coords t 1).val < 9 :=
  (by decide +kernel : ∀ t : Fin grid0.N, win0_1.xsize (grid0.coords t) 0 = 8 ∧ win0_1.xsize (grid0.coords t) 2 = 768
    ∧ ((grid0.coords t 1).val * 512 + win0_1.xsize (grid0.coords t) 1 = min 4097 ((grid0.coords t 1).val * 512 + 512))
    ∧ (grid0.coords t 1).val < 9)

/-- Every entry of the (shifted) index row is at most 4096. -/
def RowOk (x0 : Vec F S1x768 .i32) : Prop := ∀ l : Fin 768, (x0 (lane l) : BitVec 32).toNat ≤ 4096

/-- A selected element of the tile at point `t` lies in the part the fetch fills. -/
theorem moved_of_selected (t : Fin cfg0.N) (x0 : Vec F S1x768 .i32) (hx : RowOk x0) (j : S8x512x768.Idx)
    (h : tmask (grid0.coords t) x0 j = 1#1) : win0_1.moved (grid0.coords t) j = true := by
  obtain ⟨e0, e2, e1, h9⟩ := xsize_facts t
  unfold tmask at h
  rw [TileMask.mask_apply, TileMask.selected_iff _ h9] at h
  have hl := hx (j 2)
  rw [win0_1.moved_iff]
  intro a
  match a with
  | ⟨0, _⟩ => have := (j 0).isLt; show (j 0).val < win0_1.xsize (grid0.coords t) 0; rw [e0]; exact this
  | ⟨1, _⟩ => have h512 : (j 1).val < 512 := (j 1).isLt; show (j 1).val < win0_1.xsize (grid0.coords t) 1; omega
  | ⟨2, _⟩ => have := (j 2).isLt; show (j 2).val < win0_1.xsize (grid0.coords t) 2; rw [e2]; exact this

/-- So the masked tile does not depend on what the staging buffer holds past the array's end, -/
theorem picked_indep (t : Fin cfg0.N) (x0 : Vec F S1x768 .i32) (hx : RowOk x0) (d d' : S8x512x768.Idx → Elt F .f32)
    (g : (win0_1.xblock (grid0.coords t)).Idx → Elt F .f32) :
    picked (grid0.coords t) x0 (win0_1.fill (grid0.coords t) d g) = picked (grid0.coords t) x0 (win0_1.fill (grid0.coords t) d' g) := by
  funext j
  unfold picked select Scalar.select
  by_cases h : tmask (grid0.coords t) x0 j = 1
  · have hm := moved_of_selected t x0 hx j h
    rw [if_pos h, if_pos h]
    unfold Window.fill; rw [dif_pos hm, dif_pos hm]
  · rw [if_neg h, if_neg h]

/-- nor does the step. -/
theorem pay_indep (t : Fin cfg0.N) (x0 : Vec F S1x768 .i32) (hx : RowOk x0) (d d' : S8x512x768.Idx → Elt F .f32)
    (g : (win0_1.xblock (grid0.coords t)).Idx → Elt F .f32) (a : Vec F S8x768 .f32) :
    k0_pay2 (grid0.coords t) x0 (win0_1.fill (grid0.coords t) d g) a = k0_pay2 (grid0.coords t) x0 (win0_1.fill (grid0.coords t) d' g) a := by
  rw [pay2_eq, pay2_eq, picked_indep t x0 hx d d' g]

/-! ## The accumulator point by point -/

/-- The staged tile at point `t`, the positions past the array's end taken as zero. -/
def tile (c : Dev nD) (t : Fin cfg0.N) : Vec F S8x512x768 .f32 :=
  win0_1.fill (grid0.coords t) (fun _ => Scalar.ofBits .f32 0#32) (iblk m c 1 t)

/-- One step at point `t` from accumulator contents `a`. -/
def step (c : Dev nD) (t : Fin cfg0.N) (a : Vec F S8x768 .f32) : Vec F S8x768 .f32 :=
  k0_pay2 (grid0.coords t) (iblk m c 0 t) (tile m c t) a

/-- What the accumulator holds after point `n`: a step from zeros at the first tile of a batch block, from what the
    point before left otherwise. -/
def acc (c : Dev nD) : (n : ℕ) → n < cfg0.N → Vec F S8x768 .f32
  | 0, hn => step m c ⟨0, hn⟩ (k0_pay1 (F := F))
  | n + 1, hn => step m c ⟨n + 1, hn⟩ (if (n + 1) % 9 = 0 then k0_pay1 (F := F) else acc c n (Nat.lt_of_succ_lt hn))

theorem acc_first (c : Dev nD) (t : Fin cfg0.N) (h : t.val % 9 = 0) : acc m c t.val t.isLt = step m c t (k0_pay1 (F := F)) := by
  obtain ⟨n, hn⟩ := t
  cases n with
  | zero => rfl
  | succ n => show step m c _ (if (n + 1) % 9 = 0 then _ else _) = _; rw [if_pos h]

theorem acc_next (c : Dev nD) (t : Fin cfg0.N) (h : ¬t.val % 9 = 0) :
    acc m c t.val t.isLt = step m c t (acc m c (t.val - 1) (Nat.lt_of_le_of_lt (Nat.sub_le _ _) t.isLt)) := by
  obtain ⟨n, hn⟩ := t
  cases n with
  | zero => exact absurd (Nat.zero_mod _) h
  | succ n => show step m c _ (if (n + 1) % 9 = 0 then _ else _) = _; rw [if_neg h]; rfl

/-- The region's invariant before position `n`: at the start whatever the launch hands over; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-! ## The proof data -/

/-- The arrays as the region finds them; after the body the index row's buffer at its row, the tile's at the tile (stated
    on the part inside the array), the output block's at the accumulator; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tile m c t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = tile m c t := by dsimp only [dats]
theorem after2 (c : Dev nD) (t : Fin cfg0.N) : (dats m 0 c).after 2 t = acc m c t.val t.isLt := by dsimp only [dats]

/-- The index row's buffer holds the row at every point, -/
theorem before0 (c : Dev nD) (t : Fin cfg0.N) (d) : (dats m 0 c).before 0 t d = iblk m c 0 t :=
  before0_0_of m (dats m 0 c) (A_eq m c 0) (after0 m c) t d

/-- and the tile's buffer, fetched at every point, its tile on the part inside the array and anything past it. -/
theorem before1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl

/-! ## Where the output block is idle -/

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬cond2 (grid0.coords t) → cfg0.idle 2 (grid0.coords t) = true := by decide +kernel
theorem live2 : ∀ t : Fin cfg0.N, cond2 (grid0.coords t) → cfg0.idle 2 (grid0.coords t) = false := by decide +kernel
theorem noFlush2 : ∀ t : Fin cfg0.N, ¬cond2 (grid0.coords t) → (cfg0.win 2).flush t = false := by decide +kernel

theorem leaves0 (c : Dev nD) (t : Fin cfg0.N) :
    (dats m 0 c).leaves 0 t = owns (c : Thread nD τ) (ms0 t) fullShare (iblk m c 0 t) := by
  unfold Dat.leaves; rw [live0 t, ← after0 m c t]

theorem leaves1 (c : Dev nD) (t : Fin cfg0.N) :
    (dats m 0 c).leaves 1 t = iprop(∃ d, owns (c : Thread nD τ) (ms1 t) fullShare (win0_1.fill (grid0.coords t) d (iblk m c 1 t))) := by
  unfold Dat.leaves; rw [live1 t]
  have e : win0_1.cut (grid0.coords t) ((dats m 0 c).after 1 t) = iblk m c 1 t := by
    rw [after1]; exact win0_1.cut_fill _ _ _
  show iprop(∃ d, owns (c : Thread nD τ) (ms1 t) fullShare (win0_1.fill (grid0.coords t) d (win0_1.cut (grid0.coords t) ((dats m 0 c).after 1 t)))) = _
  rw [e]

theorem leaves2_idle (c : Dev nD) (t : Fin cfg0.N) (h : ¬cond2 (grid0.coords t)) :
    (dats m 0 c).leaves 2 t = iprop(∃ d, owns (c : Thread nD τ) (ms2 t) fullShare ((dats m 0 c).before 2 t d)) :=
  Dat.leaves_idle (dats m 0 c) 2 t (idle2 t h) (noFlush2 t h)

theorem leaves2_live (c : Dev nD) (t : Fin cfg0.N) (h : cond2 (grid0.coords t)) :
    (dats m 0 c).leaves 2 t = owns (c : Thread nD τ) (ms2 t) fullShare (acc m c t.val t.isLt) := by
  unfold Dat.leaves; rw [live2 t h, ← after2 m c t]

/-! ## The body at a generic point -/

/-- The shifted index row is in range at every point (what the precondition gives: see the claims). -/
def RowsOk : Prop := ∀ (c : Dev nD) (t : Fin cfg0.N), RowOk (iblk m c 0 t)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

set_option maxHeartbeats 1600000 in
theorem sound_body (hR : RowsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 72 := lt_of_lt_of_eq t.isLt (show cfg0.N = 72 from N_0)
  have hx := hR c t
  by_cases h0 : t.val % 9 = 0
  · have hc1 : cond1 (grid0.coords t) := (hcond1 t).mpr h0
    have hc2 : ¬cond2 (grid0.coords t) := fun h => by have := (hcond2 t).mp h; omega
    rw [leaves2_idle m c t hc2, acc_first m c t h0]
    by_cases hz : t.val = 0
    · rw [PhiS_castSucc m c t, PhiS_zero m c _ _ hz, PhiA_eq]
      iintro ⟨⟨⟨%xs, HS⟩, Hg⟩, Ho, ⟨%d0, H0⟩, ⟨%d1, H1⟩, ⟨%d2, H2⟩⟩
      iapply (step_first c (grid0.coords t) (ms0 t) (hs0 t) (ms1 t) (hs1 t) (ms2 t) (hs2 t) scM (Memref.isWhole_whole _) hc1 hc2
        (iblk m c 0 t) (win0_1.fill (grid0.coords t) d1 (iblk m c 1 t)) ((dats m 0 c).before 2 t d2) xs Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · unfold step tile; rw [pay_indep t _ hx d1 (fun _ => Scalar.ofBits .f32 0#32)] at *; iexact HS
        iexact Hg
      isplitl [Ho]; · iexact Ho
      isplitl [H0]; · iexact H0
      isplitl [H1]; · iexists _; iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply (step_first c (grid0.coords t) (ms0 t) (hs0 t) (ms1 t) (hs1 t) (ms2 t) (hs2 t) scM (Memref.isWhole_whole _) hc1 hc2
        (iblk m c 0 t) (win0_1.fill (grid0.coords t) d1 (iblk m c 1 t)) ((dats m 0 c).before 2 t d2) _ Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · unfold step tile; rw [pay_indep t _ hx d1 (fun _ => Scalar.ofBits .f32 0#32)] at *; iexact HS
        iexact Hg
      isplitl [Ho]; · iexact Ho
      isplitl [H0]; · iexact H0
      isplitl [H1]; · iexists _; iexact H1
      iexists _; iexact H2
  · have hc1 : ¬cond1 (grid0.coords t) := fun h => h0 ((hcond1 t).mp h)
    have hz : t.val ≠ 0 := fun h => h0 (by rw [h])
    rw [PhiS_castSucc m c t, PhiS_pos m c _ _ hz, acc_next m c t h0]
    by_cases h8 : t.val % 9 = 8
    · have hc2 : cond2 (grid0.coords t) := (hcond2 t).mpr h8
      rw [leaves2_live m c t hc2, acc_next m c t h0]
      iintro ⟨⟨HS, Hg⟩, Ho, ⟨%d0, H0⟩, ⟨%d1, H1⟩, ⟨%d2, H2⟩⟩
      iapply (step_last c (grid0.coords t) (ms0 t) (hs0 t) (ms1 t) (hs1 t) (ms2 t) (hs2 t) scM (Memref.isWhole_whole _) hc1 hc2
        (iblk m c 0 t) (win0_1.fill (grid0.coords t) d1 (iblk m c 1 t)) ((dats m 0 c).before 2 t d2) _ Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · unfold step tile; rw [pay_indep t _ hx d1 (fun _ => Scalar.ofBits .f32 0#32)] at *; iexact HS
        iexact Hg
      isplitl [Ho]; · iexact Ho
      isplitl [H0]; · iexact H0
      isplitl [H1]; · iexists _; iexact H1
      unfold step tile; rw [pay_indep t _ hx d1 (fun _ => Scalar.ofBits .f32 0#32)] at *; iexact H2
    · have hc2 : ¬cond2 (grid0.coords t) := fun h => h8 ((hcond2 t).mp h)
      rw [leaves2_idle m c t hc2]
      iintro ⟨⟨HS, Hg⟩, Ho, ⟨%d0, H0⟩, ⟨%d1, H1⟩, ⟨%d2, H2⟩⟩
      iapply (step_mid c (grid0.coords t) (ms0 t) (hs0 t) (ms1 t) (hs1 t) (ms2 t) (hs2 t) scM (Memref.isWhole_whole _) hc1 hc2
        (iblk m c 0 t) (win0_1.fill (grid0.coords t) d1 (iblk m c 1 t)) ((dats m 0 c).before 2 t d2) _ Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · unfold step tile; rw [pay_indep t _ hx d1 (fun _ => Scalar.ofBits .f32 0#32)] at *; iexact HS
        iexact Hg
      isplitl [Ho]; · iexact Ho
      isplitl [H0]; · iexact H0
      isplitl [H1]; · iexists _; iexact H1
      iexists _; iexact H2

end Cert.Kernel.Body
end
-- ==== Proof.RunKernel.lean ====
import proofs.«139204_j86354612453674_1_alg».proof.Proof.Gen.Kernel.Frame
import proofs.«139204_j86354612453674_1_alg».proof.Proof.Gen.Kernel.Skeleton
import Idealize.ShloMosaic.Lib.Pipeline.Kit
import Idealize.ShloMosaic.Lib.Tactic
import proofs.«139204_j86354612453674_1_alg».proof.Proof.DataKernel
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's obligation at every point, the tile's window stated on its part inside the array. -/
theorem body_obligation (hR : RowsOk m) (c : Dev nD) :
    BodyObligationLoose (dats (F := F) m 0 c) (defs₀ (F := F)) Variants.none () Set.univ := fun t => by
  rw [bigSep_W0, bigSep_W0]
  exact sound_body m hR c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the accumulator holds is forgotten. -/
theorem hout (c : Dev nD) : (dats m 0 c).Φ (Fin.last cfg0.N) ⊢ Pipeline.ΦA spec0 c := by
  have ht : (Fin.last cfg0.N).val ≠ 0 := by rw [Fin.val_last]; have : cfg0.N = 72 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

set_option backward.isDefEq.respectTransparency.types false in
/-- Every weakly fair execution of the program terminates, faulting nowhere, with the output array at what the proof data
    computes and every other array as the region found it. -/
theorem run_main (hR : RowsOk m) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m hR c) (hshare := fun c => (dats m 0 c).share_full fun _ => rfl)
    (howed := fun _ _ => rfl) (V := V m) (hmain := hmain m Variants.none) (hA := A_eq m) (hin := hin m) (hout := hout m)

/-- The frame: the program runs to the end and its two argument arrays end as they began. -/
theorem frame (hR : RowsOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hR)

end Cert.Kernel.Body
end
-- ==== Proof.IdxRange.lean ====
import proofs.«139204_j86354612453674_1_alg».proof.Pre_finite_inputs
import proofs.«139204_j86354612453674_1_alg».proof.Proof.Gen.Pre_finite_inputs
import Idealize.ShloMosaic.Lib.ReduceAll
import Idealize.ShloMosaic.Lib.ValueIdx

noncomputable section

/-! # The index row is in range

The precondition asks, beside finiteness of the tokens, that every entry of the index row is at least 0 and below 4096
as a signed word. Such a word is below 4096 as a natural number, and adding one to it does not wrap. -/

namespace Cert.IdxRange

open Idealize.ShloMosaic Cert.Pre_finite_inputs

variable {F : FTy → Type} [FloatOps F]

theorem ofBool_eq_one (b : Bool) : BitVec.ofBool b = 1#1 ↔ b = true := by cases b <;> decide

/-- A 32-bit word that is nonnegative and below `n < 2^31` as a signed number is below `n` as a natural number. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

instance : Subsingleton S_.Idx := ⟨fun a b => funext fun d => d.elim0⟩

/-- The precondition, all ones, bounds every entry of the index row: `0 ≤ idx j < 4096`. -/
theorem idx_lt [Facts] (x : FVec F S64x4097x768 .f32) (idx : IVec S768 32)
    (h : fn (F := F) x idx = fun _ => 1#1) (j : S768.Idx) : (idx j).toNat < 4096 := by
  have e := congrFun h ValueIdx.ix0
  dsimp only [fn] at e
  simp only [andi, IntOp.andi_eq_one] at e
  obtain ⟨⟨-, hge⟩, hlt⟩ := e
  have hge' := Host.reduce_andi_all _ _ _ _ _ hge j
  have hlt' := Host.reduce_andi_all _ _ _ _ _ hlt j
  simp only [cmpi, broadcastInDim, constantI] at hge' hlt'
  exact toNat_lt_of_signed _ 4096 (by decide) hge' hlt'

/-- One more than a word below 4096 is its successor, without wrapping. -/
theorem succ_toNat (w : BitVec 32) (h : w.toNat < 4096) : (w + 1#32).toNat = w.toNat + 1 := by
  rw [BitVec.toNat_add]; simp; omega

end Cert.IdxRange

end
-- ==== Proof.RowKernel.lean ====
import proofs.«139204_j86354612453674_1_alg».proof.Proof.Gen.Kernel.Frame
import proofs.«139204_j86354612453674_1_alg».proof.Proof.Gen.Kernel.Skeleton
import Idealize.ShloMosaic.Lib.Pipeline.Kit
import Idealize.ShloMosaic.Lib.Tactic
import proofs.«139204_j86354612453674_1_alg».proof.Proof.DataKernel
import proofs.«139204_j86354612453674_1_alg».proof.Proof.IdxRange
import Idealize.ShloMosaic.Lib.StableHlo.Run
set_option maxRecDepth 16384

noncomputable section

namespace Cert.Kernel.Body
open Cert.TileMask (lane)
open Idealize.ShloMosaic.StableHlo Idealize.ShloMosaic.ValueIdx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shifted index row

Before the region the program adds one to every index and views the 768 results as one row: the row the kernel compares
positions with. Its window's block is the whole row at every point. -/

/-- The index argument on core `c`, as 768 words. -/
abbrev idxs (c : Dev nD) : S768.Idx → BitVec 32 := m ((c : Thread nD τ).loc main_arg1)
/-- The row as the region finds it, as 1 × 768 words. -/
abbrev rowV (c : Dev nD) : S1x768.Idx → BitVec 32 := V m c main_v2

/-- The row as the region finds it: the indices plus one, reshaped [768] → [1, 768]. -/
theorem V_row (c : Dev nD) : rowV m c
    = shapeCast S1x768 (addi (idxs m c) (broadcastInDim S768 ![] bcast_S_S768 (constantI S_ 32 1#32)))
        shapeCasts_S768_S1x768 := by
  dsimp only [rowV, idxs, Gen.V, Gen.hostOps0]
  after_results
  rfl

theorem idx_facts0 : ∀ t : Fin cfg0.N, win0_0.index t 0 = 0 ∧ win0_0.index t 1 = 0 :=
  (by decide +kernel : ∀ t : Fin grid0.N, win0_0.index t 0 = 0 ∧ win0_0.index t 1 = 0)

/-- The row's block at any point is the row. -/
theorem iblk0_apply (c : Dev nD) (t : Fin cfg0.N) (j : S1x768.Idx) :
    iblk m c 0 t j = rowV m c j := by
  obtain ⟨e0, e1⟩ := idx_facts0 t
  unfold iblk
  rw [View.read_apply]
  show rowV m c (((cfg0.win 0).blk t).view.emb j) = rowV m c j
  refine congrArg _ (funext fun a => Fin.ext ?_)
  match a with
  | ⟨0, _⟩ => show win0_0.index t 0 * 1 + 1 * (j 0).val = (j 0).val; rw [e0]; omega
  | ⟨1, _⟩ => show win0_0.index t 1 * 768 + 1 * (j 1).val = (j 1).val; rw [e1]; omega

/-- Lane `l` of the row is index `l` plus one. -/
theorem row_apply (c : Dev nD) (l : Fin 768) :
    rowV m c (lane l) = idxs m c (ix1 l) + 1#32 := by
  rw [V_row]
  rw [shapeCast_apply _ shapeCasts_S768_S1x768 (lane l) (ix1 l) (by
    rw [Shape.rowMajor_val_one, Shape.rowMajor_val_two]; show l.val = 0 * 768 + l.val; omega)]
  unfold addi
  rw [broadcastInDim_apply _ bcast_S_S768 (constantI S_ 32 1#32) (ix1 l) (fun a => a.elim0) (fun a => a.elim0)]
  rfl

/-- Under the precondition every entry of the row is at most 4096 — and is the index plus one as a number. -/
theorem row_toNat (c : Dev nD)
    (h : Cert.Pre_finite_inputs.fn (F := F) (m ((c : Thread nD τ).loc main_arg0)) (m ((c : Thread nD τ).loc main_arg1)) = fun _ => 1#1)
    (l : Fin 768) :
    (rowV m c (lane l)).toNat = (idxs m c (ix1 l)).toNat + 1 ∧ (idxs m c (ix1 l)).toNat < 4096 := by
  have hl := Cert.IdxRange.idx_lt _ _ h (ix1 l)
  rw [row_apply]
  exact ⟨Cert.IdxRange.succ_toNat _ hl, hl⟩

theorem rowsOk_of_pre
    (h : ∀ c : Dev nD, Cert.Pre_finite_inputs.fn (F := F) (m ((c : Thread nD τ).loc main_arg0)) (m ((c : Thread nD τ).loc main_arg1)) = fun _ => 1#1) :
    RowsOk m := by
  intro c t l
  show (iblk m c 0 t (lane l) : BitVec 32).toNat ≤ 4096
  rw [iblk0_apply]
  have := row_toNat m c (h c) l
  omega

end Cert.Kernel.Body
end
-- ==== Proof.StepsKernelIdeal.lean ====
import proofs.«139204_j86354612453674_1_alg».proof.Proof.Gen.KernelIdeal.Frame
import proofs.«139204_j86354612453674_1_alg».proof.Proof.Gen.KernelIdeal.Skeleton
import Idealize.ShloMosaic.Lib.Pipeline.Kit
import Idealize.ShloMosaic.Lib.Tactic
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two conditions of the body, in closed form over the grid

The grid is 8 × 9, the second coordinate the tile of the sequence axis. The body zeroes its accumulator where that
coordinate is 0 and copies it to the output block where it is 8. -/

/-- The accumulator is reset: the sequence tile is the first. -/
abbrev cond1 (i : grid0.Coords) : Prop := (Scalar.cmpi .ne (Scalar.extui (Scalar.cmpi .eq (BitVec.ofNat 32 (i 1).val) 0#32)) 0#32) = 1#1
/-- The accumulator is copied out: the sequence tile is the last. -/
abbrev cond2 (i : grid0.Coords) : Prop := k0_cond2 i = 1#1

theorem hcond1 : ∀ t : Fin cfg0.N, cond1 (grid0.coords t) ↔ t.val % 9 = 0 :=
  (by decide +kernel : ∀ t : Fin grid0.N, cond1 (grid0.coords t) ↔ t.val % 9 = 0)
theorem hcond2 : ∀ t : Fin cfg0.N, cond2 (grid0.coords t) ↔ t.val % 9 = 8 :=
  (by decide +kernel : ∀ t : Fin grid0.N, cond2 (grid0.coords t) ↔ t.val % 9 = 8)

theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole buffer covers it, -/
theorem cover_one {Val : EltTy → Type} {S : Shape} {e : EltTy} {off : Fin S.rank → Nat} (h : off = fun _ => 0)
    (inb : ∀ a, off a + S.size a ≤ S.size a) (w : S.Idx → Val e) :
    ∀ y, ∃ p ∈ [(⟨Rect.unit off S.size inb, w⟩ : View.Piece Val S e)], y ∈ p.1.set :=
  fun y => ⟨_, List.mem_singleton_self _, View.mem_set_unit_zero h inb y⟩
/-- and so does the last of several. -/
theorem cover_head {Val : EltTy → Type} {S : Shape} {e : EltTy} {off : Fin S.rank → Nat} (h : off = fun _ => 0)
    (inb : ∀ a, off a + S.size a ≤ S.size a) (w : S.Idx → Val e) (L : List (View.Piece Val S e)) :
    ∀ y, ∃ p ∈ ((⟨Rect.unit off S.size inb, w⟩ : View.Piece Val S e) :: L), y ∈ p.1.set :=
  fun y => ⟨_, List.mem_cons_self, View.mem_set_unit_zero h inb y⟩

/-! ## One step of the body, case by case

Every access is the whole buffer, so a load reads the contents and the last store leaves its payload. With `x0` the
index row, `x1` the staged tile and `xs` the accumulator, a step leaves the accumulator at `k0_pay2 i x0 x1 xs`
(at the first tile `xs` is first replaced by zeros, `k0_pay1`), and at the last tile the output block at the same. -/

/-- A middle tile: the accumulator is added to; the output block is not touched. -/
theorem step_mid (c : Dev nD) (i : grid0.Coords) (arg2 : Memref sig .tc .vmem S1x768 .i32) (harg2 : arg2.IsWhole)
    (arg3 : Memref sig .tc .vmem S8x512x768 .f32) (harg3 : arg3.IsWhole) (arg4 : Memref sig .tc .vmem S8x768 .f32) (harg4 : arg4.IsWhole)
    (arg5 : Memref sig .tc .vmem S8x768 .f32) (harg5 : arg5.IsWhole) (hc1 : ¬cond1 i) (hc2 : ¬cond2 i)
    (x0 : Vec F S1x768 .i32) (x1 : Vec F S8x512x768 .f32) (xo : Vec F S8x768 .f32) (xs : Vec F S8x768 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 i x0 x1 xs)) -∗ K ⟨⟩))
      ⊢ wp frame (wpE (defs₀ (F := F)) Variants.none c none) E (cc0__embrace_kernel i arg2 harg2 arg3 harg3 arg4 harg4 arg5 harg5) K := by
  simp only [cc0__embrace_kernel_eq_skeleton]; unfold cc0__embrace_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  try sl_unfold_words
  rw [View.read_writes_eq_canon _ _ _ (cover_one hz2 _ _), View.canon_unit_zero hz2]
  simp only [View.readAt_eq_ld, harg2.read_unread, harg3.read_unread, harg5.read_unread, View.ld_unit_zero (S := S1x768) hz2,
    View.ld_unit_zero (S := S8x768) hz2, View.ld_unit_zero (S := S8x512x768) hz3]

/-- The first tile: the accumulator, whatever it held, is zeroed and then added to; the output block is not touched. -/
theorem step_first (c : Dev nD) (i : grid0.Coords) (arg2 : Memref sig .tc .vmem S1x768 .i32) (harg2 : arg2.IsWhole)
    (arg3 : Memref sig .tc .vmem S8x512x768 .f32) (harg3 : arg3.IsWhole) (arg4 : Memref sig .tc .vmem S8x768 .f32) (harg4 : arg4.IsWhole)
    (arg5 : Memref sig .tc .vmem S8x768 .f32) (harg5 : arg5.IsWhole) (hc1 : cond1 i) (hc2 : ¬cond2 i)
    (x0 : Vec F S1x768 .i32) (x1 : Vec F S8x512x768 .f32) (xo : Vec F S8x768 .f32) (xs : Vec F S8x768 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 i x0 x1 (k0_pay1 (F := F)))) -∗ K ⟨⟩))
      ⊢ wp frame (wpE (defs₀ (F := F)) Variants.none c none) E (cc0__embrace_kernel i arg2 harg2 arg3 harg3 arg4 harg4 arg5 harg5) K := by
  simp only [cc0__embrace_kernel_eq_skeleton]; unfold cc0__embrace_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  try sl_unfold_words
  rw [View.read_writes_eq_canon _ _ _ (cover_head hz2 _ _ _), View.canon_cons_unit_zero hz2]
  simp only [View.readAt_eq_ld, harg2.read_unread, harg3.read_unread, harg5.read_unread, View.ld_unit_zero (S := S1x768) hz2,
    View.ld_unit_zero (S := S8x768) hz2, View.ld_unit_zero (S := S8x512x768) hz3, View.readCov_unit_zero (S := S8x768) _ hz2]

/-- The last tile: the accumulator is added to, and the output block, whatever it held, ends holding the accumulator. -/
theorem step_last (c : Dev nD) (i : grid0.Coords) (arg2 : Memref sig .tc .vmem S1x768 .i32) (harg2 : arg2.IsWhole)
    (arg3 : Memref sig .tc .vmem S8x512x768 .f32) (harg3 : arg3.IsWhole) (arg4 : Memref sig .tc .vmem S8x768 .f32) (harg4 : arg4.IsWhole)
    (arg5 : Memref sig .tc .vmem S8x768 .f32) (harg5 : arg5.IsWhole) (hc1 : ¬cond1 i) (hc2 : cond2 i)
    (x0 : Vec F S1x768 .i32) (x1 : Vec F S8x512x768 .f32) (xo : Vec F S8x768 .f32) (xs : Vec F S8x768 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 i x0 x1 xs)
            ∗ owns (c : Thread nD τ) arg5 fullShare (k0_pay2 i x0 x1 xs)) -∗ K ⟨⟩))
      ⊢ wp frame (wpE (defs₀ (F := F)) Variants.none c none) E (cc0__embrace_kernel i arg2 harg2 arg3 harg3 arg4 harg4 arg5 harg5) K := by
  simp only [cc0__embrace_kernel_eq_skeleton]; unfold cc0__embrace_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    try sl_unfold_words
    rw [View.read_writes_eq_canon _ _ _ (cover_one hz2 _ _), View.canon_unit_zero hz2]
    simp only [View.readAt_eq_ld, harg2.read_unread, harg3.read_unread, harg5.read_unread, View.ld_unit_zero (S := S1x768) hz2,
      View.ld_unit_zero (S := S8x768) hz2, View.ld_unit_zero (S := S8x512x768) hz3, View.readCov_unit_zero (S := S8x768) _ hz2]
  iexists _; isplitr
  swap; · iexact HS
  ipureintro
  try sl_unfold_words
  rw [View.read_writes_eq_canon _ _ _ (cover_one hz2 _ _), View.canon_unit_zero hz2]
  simp only [View.readAt_eq_ld, harg2.read_unread, harg3.read_unread, harg5.read_unread, View.ld_unit_zero (S := S1x768) hz2,
    View.ld_unit_zero (S := S8x768) hz2, View.ld_unit_zero (S := S8x512x768) hz3]

end Cert.KernelIdeal.Body
end
-- ==== Proof.DataKernelIdeal.lean ====
import proofs.«139204_j86354612453674_1_alg».proof.Proof.Gen.KernelIdeal.Frame
import proofs.«139204_j86354612453674_1_alg».proof.Proof.Gen.KernelIdeal.Skeleton
import Idealize.ShloMosaic.Lib.Pipeline.Kit
import Idealize.ShloMosaic.Lib.Tactic
import proofs.«139204_j86354612453674_1_alg».proof.Proof.StepsKernelIdeal
import proofs.«139204_j86354612453674_1_alg».proof.Proof.TileMask
set_option maxRecDepth 16384

noncomputable section

namespace Cert.KernelIdeal.Body

open Cert.TileMask (lane)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs the body is called with -/

abbrev ms0 (t : Fin cfg0.N) : Memref sig .tc .vmem S1x768 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x768 .f32 := win0_2.stage (cfg0.slots t 2)
abbrev hs2 (t : Fin cfg0.N) : (ms2 t).IsWhole := hstage0_2 ((cfg0.slots t 2).cast nbuf0_2)
/-- The accumulator: the kernel's one scratch buffer. -/
abbrev scM : Memref sig .tc .vmem S8x768 .f32 := Memref.whole cc0_scratch0

/-- Between launches the region holds the accumulator at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## One step, as mask, masked tile and lane sums -/

/-- The mask of the tile at grid coordinates `i`: position against the lane's row entry. -/
def tmask (i : grid0.Coords) (x0 : Vec F S1x768 .i32) : IVec S8x512x768 1 :=
  cmpi .eq (addi (broadcast S8x512x768 (Scalar.muli (BitVec.ofNat 32 (i 1).val) 512#32)) (iota .tc S8x512x768 32 [1] iota_S8x512x768_d1_w32))
    (broadcastTo S8x512x768 (shapeCast S1x1x768 (shapeCast S1x768 x0 shapeCasts_S1x768_S1x768) shapeCasts_S1x768_S1x1x768) broadcasts_S1x1x768_S8x512x768)

/-- The tile with every unselected element replaced by zero. -/
def picked (i : grid0.Coords) (x0 : Vec F S1x768 .i32) (x1 : Vec F S8x512x768 .f32) : Vec F S8x512x768 .f32 :=
  select (tmask i x0) x1 (broadcast S8x512x768 (Scalar.ofBits .f32 0x00000000#32))

/-- The accumulator plus the sums of a tile along the sequence axis. -/
def addTile (v : Vec F S8x512x768 .f32) (a : Vec F S8x768 .f32) : FVec F S8x768 .f32 :=
  shapeCast S8x768 (addf a (multiReduction .add [1] S8x768 v 0x00000000#32 reduces_S8x512x768_S8x768 (.inl rfl) rfl)) shapeCasts_S8x768_S8x768

theorem pay2_eq (i : grid0.Coords) (x0 : Vec F S1x768 .i32) (x1 : Vec F S8x512x768 .f32) (a : Vec F S8x768 .f32) :
    k0_pay2 i x0 x1 a = addTile (picked i x0 x1) a := rfl

/-! ## The overhang is never selected

Along the sequence axis the part of the tile at point `t` that lies inside the array ends at position 4097. -/

theorem xsize_facts : ∀ t : Fin cfg0.N, win0_1.xsize (grid0.coords t) 0 = 8 ∧ win0_1.xsize (grid0.coords t) 2 = 768
    ∧ ((grid0.coords t 1).val * 512 + win0_1.xsize (grid0.coords t) 1 = min 4097 ((grid0.coords t 1).val * 512 + 512))
    ∧ (grid0.coords t 1).val < 9 :=
  (by decide +kernel : ∀ t : Fin grid0.N, win0_1.xsize (grid0.coords t) 0 = 8 ∧ win0_1.xsize (grid0.coords t) 2 = 768
    ∧ ((grid0.coords t 1).val * 512 + win0_1.xsize (grid0.coords t) 1 = min 4097 ((grid0.coords t 1).val * 512 + 512))
    ∧ (grid0.coords t 1).val < 9)

/-- Every entry of the (shifted) index row is at most 4096. -/
def RowOk (x0 : Vec F S1x768 .i32) : Prop := ∀ l : Fin 768, (x0 (lane l) : BitVec 32).toNat ≤ 4096

/-- A selected element of the tile at point `t` lies in the part the fetch fills. -/
theorem moved_of_selected (t : Fin cfg0.N) (x0 : Vec F S1x768 .i32) (hx : RowOk x0) (j : S8x512x768.Idx)
    (h : tmask (grid0.coords t) x0 j = 1#1) : win0_1.moved (grid0.coords t) j = true := by
  obtain ⟨e0, e2, e1, h9⟩ := xsize_facts t
  unfold tmask at h
  rw [TileMask.mask_apply, TileMask.selected_iff _ h9] at h
  have hl := hx (j 2)
  rw [win0_1.moved_iff]
  intro a
  match a with
  | ⟨0, _⟩ => have := (j 0).isLt; show (j 0).val < win0_1.xsize (grid0.coords t) 0; rw [e0]; exact this
  | ⟨1, _⟩ => have h512 : (j 1).val < 512 := (j 1).isLt; show (j 1).val < win0_1.xsize (grid0.coords t) 1; omega
  | ⟨2, _⟩ => have := (j 2).isLt; show (j 2).val < win0_1.xsize (grid0.coords t) 2; rw [e2]; exact this

/-- So the masked tile does not depend on what the staging buffer holds past the array's end, -/
theorem picked_indep (t : Fin cfg0.N) (x0 : Vec F S1x768 .i32) (hx : RowOk x0) (d d' : S8x512x768.Idx → Elt F .f32)
    (g : (win0_1.xblock (grid0.coords t)).Idx → Elt F .f32) :
    picked (grid0.coords t) x0 (win0_1.fill (grid0.coords t) d g) = picked (grid0.coords t) x0 (win0_1.fill (grid0.coords t) d' g) := by
  funext j
  unfold picked select Scalar.select
  by_cases h : tmask (grid0.coords t) x0 j = 1
  · have hm := moved_of_selected t x0 hx j h
    rw [if_pos h, if_pos h]
    unfold Window.fill; rw [dif_pos hm, dif_pos hm]
  · rw [if_neg h, if_neg h]

/-- nor does the step. -/
theorem pay_indep (t : Fin cfg0.N) (x0 : Vec F S1x768 .i32) (hx : RowOk x0) (d d' : S8x512x768.Idx → Elt F .f32)
    (g : (win0_1.xblock (grid0.coords t)).Idx → Elt F .f32) (a : Vec F S8x768 .f32) :
    k0_pay2 (grid0.coords t) x0 (win0_1.fill (grid0.coords t) d g) a = k0_pay2 (grid0.coords t) x0 (win0_1.fill (grid0.coords t) d' g) a := by
  rw [pay2_eq, pay2_eq, picked_indep t x0 hx d d' g]

/-! ## The accumulator point by point -/

/-- The staged tile at point `t`, the positions past the array's end taken as zero. -/
def tile (c : Dev nD) (t : Fin cfg0.N) : Vec F S8x512x768 .f32 :=
  win0_1.fill (grid0.coords t) (fun _ => Scalar.ofBits .f32 0#32) (iblk m c 1 t)

/-- One step at point `t` from accumulator contents `a`. -/
def step (c : Dev nD) (t : Fin cfg0.N) (a : Vec F S8x768 .f32) : Vec F S8x768 .f32 :=
  k0_pay2 (grid0.coords t) (iblk m c 0 t) (tile m c t) a

/-- What the accumulator holds after point `n`: a step from zeros at the first tile of a batch block, from what the
    point before left otherwise. -/
def acc (c : Dev nD) : (n : ℕ) → n < cfg0.N → Vec F S8x768 .f32
  | 0, hn => step m c ⟨0, hn⟩ (k0_pay1 (F := F))
  | n + 1, hn => step m c ⟨n + 1, hn⟩ (if (n + 1) % 9 = 0 then k0_pay1 (F := F) else acc c n (Nat.lt_of_succ_lt hn))

theorem acc_first (c : Dev nD) (t : Fin cfg0.N) (h : t.val % 9 = 0) : acc m c t.val t.isLt = step m c t (k0_pay1 (F := F)) := by
  obtain ⟨n, hn⟩ := t
  cases n with
  | zero => rfl
  | succ n => show step m c _ (if (n + 1) % 9 = 0 then _ else _) = _; rw [if_pos h]

theorem acc_next (c : Dev nD) (t : Fin cfg0.N) (h : ¬t.val % 9 = 0) :
    acc m c t.val t.isLt = step m c t (acc m c (t.val - 1) (Nat.lt_of_le_of_lt (Nat.sub_le _ _) t.isLt)) := by
  obtain ⟨n, hn⟩ := t
  cases n with
  | zero => exact absurd (Nat.zero_mod _) h
  | succ n => show step m c _ (if (n + 1) % 9 = 0 then _ else _) = _; rw [if_neg h]; rfl

/-- The region's invariant before position `n`: at the start whatever the launch hands over; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-! ## The proof data -/

/-- The arrays as the region finds them; after the body the index row's buffer at its row, the tile's at the tile (stated
    on the part inside the array), the output block's at the accumulator; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tile m c t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = tile m c t := by dsimp only [dats]
theorem after2 (c : Dev nD) (t : Fin cfg0.N) : (dats m 0 c).after 2 t = acc m c t.val t.isLt := by dsimp only [dats]

/-- The index row's buffer holds the row at every point, -/
theorem before0 (c : Dev nD) (t : Fin cfg0.N) (d) : (dats m 0 c).before 0 t d = iblk m c 0 t :=
  before0_0_of m (dats m 0 c) (A_eq m c 0) (after0 m c) t d

/-- and the tile's buffer, fetched at every point, its tile on the part inside the array and anything past it. -/
theorem before1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl

/-! ## Where the output block is idle -/

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬cond2 (grid0.coords t) → cfg0.idle 2 (grid0.coords t) = true := by decide +kernel
theorem live2 : ∀ t : Fin cfg0.N, cond2 (grid0.coords t) → cfg0.idle 2 (grid0.coords t) = false := by decide +kernel
theorem noFlush2 : ∀ t : Fin cfg0.N, ¬cond2 (grid0.coords t) → (cfg0.win 2).flush t = false := by decide +kernel

theorem leaves0 (c : Dev nD) (t : Fin cfg0.N) :
    (dats m 0 c).leaves 0 t = owns (c : Thread nD τ) (ms0 t) fullShare (iblk m c 0 t) := by
  unfold Dat.leaves; rw [live0 t, ← after0 m c t]

theorem leaves1 (c : Dev nD) (t : Fin cfg0.N) :
    (dats m 0 c).leaves 1 t = iprop(∃ d, owns (c : Thread nD τ) (ms1 t) fullShare (win0_1.fill (grid0.coords t) d (iblk m c 1 t))) := by
  unfold Dat.leaves; rw [live1 t]
  have e : win0_1.cut (grid0.coords t) ((dats m 0 c).after 1 t) = iblk m c 1 t := by
    rw [after1]; exact win0_1.cut_fill _ _ _
  show iprop(∃ d, owns (c : Thread nD τ) (ms1 t) fullShare (win0_1.fill (grid0.coords t) d (win0_1.cut (grid0.coords t) ((dats m 0 c).after 1 t)))) = _
  rw [e]

theorem leaves2_idle (c : Dev nD) (t : Fin cfg0.N) (h : ¬cond2 (grid0.coords t)) :
    (dats m 0 c).leaves 2 t = iprop(∃ d, owns (c : Thread nD τ) (ms2 t) fullShare ((dats m 0 c).before 2 t d)) :=
  Dat.leaves_idle (dats m 0 c) 2 t (idle2 t h) (noFlush2 t h)

theorem leaves2_live (c : Dev nD) (t : Fin cfg0.N) (h : cond2 (grid0.coords t)) :
    (dats m 0 c).leaves 2 t = owns (c : Thread nD τ) (ms2 t) fullShare (acc m c t.val t.isLt) := by
  unfold Dat.leaves; rw [live2 t h, ← after2 m c t]

/-! ## The body at a generic point -/

/-- The shifted index row is in range at every point (what the precondition gives: see the claims). -/
def RowsOk : Prop := ∀ (c : Dev nD) (t : Fin cfg0.N), RowOk (iblk m c 0 t)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

set_option maxHeartbeats 1600000 in
theorem sound_body (hR : RowsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 72 := lt_of_lt_of_eq t.isLt (show cfg0.N = 72 from N_0)
  have hx := hR c t
  by_cases h0 : t.val % 9 = 0
  · have hc1 : cond1 (grid0.coords t) := (hcond1 t).mpr h0
    have hc2 : ¬cond2 (grid0.coords t) := fun h => by have := (hcond2 t).mp h; omega
    rw [leaves2_idle m c t hc2, acc_first m c t h0]
    by_cases hz : t.val = 0
    · rw [PhiS_castSucc m c t, PhiS_zero m c _ _ hz, PhiA_eq]
      iintro ⟨⟨⟨%xs, HS⟩, Hg⟩, Ho, ⟨%d0, H0⟩, ⟨%d1, H1⟩, ⟨%d2, H2⟩⟩
      iapply (step_first c (grid0.coords t) (ms0 t) (hs0 t) (ms1 t) (hs1 t) (ms2 t) (hs2 t) scM (Memref.isWhole_whole _) hc1 hc2
        (iblk m c 0 t) (win0_1.fill (grid0.coords t) d1 (iblk m c 1 t)) ((dats m 0 c).before 2 t d2) xs Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · unfold step tile; rw [pay_indep t _ hx d1 (fun _ => Scalar.ofBits .f32 0#32)] at *; iexact HS
        iexact Hg
      isplitl [Ho]; · iexact Ho
      isplitl [H0]; · iexact H0
      isplitl [H1]; · iexists _; iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply (step_first c (grid0.coords t) (ms0 t) (hs0 t) (ms1 t) (hs1 t) (ms2 t) (hs2 t) scM (Memref.isWhole_whole _) hc1 hc2
        (iblk m c 0 t) (win0_1.fill (grid0.coords t) d1 (iblk m c 1 t)) ((dats m 0 c).before 2 t d2) _ Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · unfold step tile; rw [pay_indep t _ hx d1 (fun _ => Scalar.ofBits .f32 0#32)] at *; iexact HS
        iexact Hg
      isplitl [Ho]; · iexact Ho
      isplitl [H0]; · iexact H0
      isplitl [H1]; · iexists _; iexact H1
      iexists _; iexact H2
  · have hc1 : ¬cond1 (grid0.coords t) := fun h => h0 ((hcond1 t).mp h)
    have hz : t.val ≠ 0 := fun h => h0 (by rw [h])
    rw [PhiS_castSucc m c t, PhiS_pos m c _ _ hz, acc_next m c t h0]
    by_cases h8 : t.val % 9 = 8
    · have hc2 : cond2 (grid0.coords t) := (hcond2 t).mpr h8
      rw [leaves2_live m c t hc2, acc_next m c t h0]
      iintro ⟨⟨HS, Hg⟩, Ho, ⟨%d0, H0⟩, ⟨%d1, H1⟩, ⟨%d2, H2⟩⟩
      iapply (step_last c (grid0.coords t) (ms0 t) (hs0 t) (ms1 t) (hs1 t) (ms2 t) (hs2 t) scM (Memref.isWhole_whole _) hc1 hc2
        (iblk m c 0 t) (win0_1.fill (grid0.coords t) d1 (iblk m c 1 t)) ((dats m 0 c).before 2 t d2) _ Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · unfold step tile; rw [pay_indep t _ hx d1 (fun _ => Scalar.ofBits .f32 0#32)] at *; iexact HS
        iexact Hg
      isplitl [Ho]; · iexact Ho
      isplitl [H0]; · iexact H0
      isplitl [H1]; · iexists _; iexact H1
      unfold step tile; rw [pay_indep t _ hx d1 (fun _ => Scalar.ofBits .f32 0#32)] at *; iexact H2
    · have hc2 : ¬cond2 (grid0.coords t) := fun h => h8 ((hcond2 t).mp h)
      rw [leaves2_idle m c t hc2]
      iintro ⟨⟨HS, Hg⟩, Ho, ⟨%d0, H0⟩, ⟨%d1, H1⟩, ⟨%d2, H2⟩⟩
      iapply (step_mid c (grid0.coords t) (ms0 t) (hs0 t) (ms1 t) (hs1 t) (ms2 t) (hs2 t) scM (Memref.isWhole_whole _) hc1 hc2
        (iblk m c 0 t) (win0_1.fill (grid0.coords t) d1 (iblk m c 1 t)) ((dats m 0 c).before 2 t d2) _ Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · unfold step tile; rw [pay_indep t _ hx d1 (fun _ => Scalar.ofBits .f32 0#32)] at *; iexact HS
        iexact Hg
      isplitl [Ho]; · iexact Ho
      isplitl [H0]; · iexact H0
      isplitl [H1]; · iexists _; iexact H1
      iexists _; iexact H2

end Cert.KernelIdeal.Body
end
-- ==== Proof.RowKernelIdeal.lean ====
import proofs.«139204_j86354612453674_1_alg».proof.Proof.Gen.KernelIdeal.Frame
import proofs.«139204_j86354612453674_1_alg».proof.Proof.Gen.KernelIdeal.Skeleton
import Idealize.ShloMosaic.Lib.Pipeline.Kit
import Idealize.ShloMosaic.Lib.Tactic
import proofs.«139204_j86354612453674_1_alg».proof.Proof.DataKernelIdeal
import proofs.«139204_j86354612453674_1_alg».proof.Proof.IdxRange
import Idealize.ShloMosaic.Lib.StableHlo.Run
set_option maxRecDepth 16384

noncomputable section

namespace Cert.KernelIdeal.Body
open Cert.TileMask (lane)
open Idealize.ShloMosaic.StableHlo Idealize.ShloMosaic.ValueIdx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shifted index row

Before the region the program adds one to every index and views the 768 results as one row: the row the kernel compares
positions with. Its window's block is the whole row at every point. -/

/-- The index argument on core `c`, as 768 words. -/
abbrev idxs (c : Dev nD) : S768.Idx → BitVec 32 := m ((c : Thread nD τ).loc main_arg1)
/-- The row as the region finds it, as 1 × 768 words. -/
abbrev rowV (c : Dev nD) : S1x768.Idx → BitVec 32 := V m c main_v2

/-- The row as the region finds it: the indices plus one, reshaped [768] → [1, 768]. -/
theorem V_row (c : Dev nD) : rowV m c
    = shapeCast S1x768 (addi (idxs m c) (broadcastInDim S768 ![] bcast_S_S768 (constantI S_ 32 1#32)))
        shapeCasts_S768_S1x768 := by
  dsimp only [rowV, idxs, Gen.V, Gen.hostOps0]
  after_results
  rfl

theorem idx_facts0 : ∀ t : Fin cfg0.N, win0_0.index t 0 = 0 ∧ win0_0.index t 1 = 0 :=
  (by decide +kernel : ∀ t : Fin grid0.N, win0_0.index t 0 = 0 ∧ win0_0.index t 1 = 0)

/-- The row's block at any point is the row. -/
theorem iblk0_apply (c : Dev nD) (t : Fin cfg0.N) (j : S1x768.Idx) :
    iblk m c 0 t j = rowV m c j := by
  obtain ⟨e0, e1⟩ := idx_facts0 t
  unfold iblk
  rw [View.read_apply]
  show rowV m c (((cfg0.win 0).blk t).view.emb j) = rowV m c j
  refine congrArg _ (funext fun a => Fin.ext ?_)
  match a with
  | ⟨0, _⟩ => show win0_0.index t 0 * 1 + 1 * (j 0).val = (j 0).val; rw [e0]; omega
  | ⟨1, _⟩ => show win0_0.index t 1 * 768 + 1 * (j 1).val = (j 1).val; rw [e1]; omega

/-- Lane `l` of the row is index `l` plus one. -/
theorem row_apply (c : Dev nD) (l : Fin 768) :
    rowV m c (lane l) = idxs m c (ix1 l) + 1#32 := by
  rw [V_row]
  rw [shapeCast_apply _ shapeCasts_S768_S1x768 (lane l) (ix1 l) (by
    rw [Shape.rowMajor_val_one, Shape.rowMajor_val_two]; show l.val = 0 * 768 + l.val; omega)]
  unfold addi
  rw [broadcastInDim_apply _ bcast_S_S768 (constantI S_ 32 1#32) (ix1 l) (fun a => a.elim0) (fun a => a.elim0)]
  rfl

/-- Under the precondition every entry of the row is at most 4096 — and is the index plus one as a number. -/
theorem row_toNat (c : Dev nD)
    (h : Cert.Pre_finite_inputs.fn (F := F) (m ((c : Thread nD τ).loc main_arg0)) (m ((c : Thread nD τ).loc main_arg1)) = fun _ => 1#1)
    (l : Fin 768) :
    (rowV m c (lane l)).toNat = (idxs m c (ix1 l)).toNat + 1 ∧ (idxs m c (ix1 l)).toNat < 4096 := by
  have hl := Cert.IdxRange.idx_lt _ _ h (ix1 l)
  rw [row_apply]
  exact ⟨Cert.IdxRange.succ_toNat _ hl, hl⟩

theorem rowsOk_of_pre
    (h : ∀ c : Dev nD, Cert.Pre_finite_inputs.fn (F := F) (m ((c : Thread nD τ).loc main_arg0)) (m ((c : Thread nD τ).loc main_arg1)) = fun _ => 1#1) :
    RowsOk m := by
  intro c t l
  show (iblk m c 0 t (lane l) : BitVec 32).toNat ≤ 4096
  rw [iblk0_apply]
  have := row_toNat m c (h c) l
  omega

end Cert.KernelIdeal.Body
end
-- ==== Proof.PickSum.lean ====
import Idealize.ShloMosaic.PureOps.Ideal

noncomputable section

/-! # A sum with at most one live term

Over the 512 positions of a tile, a sum whose term at `s` is zero unless `base + s = r` is the term at `r - base` when
`r` lies in the tile, and zero otherwise. Only additions of zero occur, so this holds of every extended real. -/

namespace Cert.PickSum

theorem sum_pick (f : Fin 512 → EReal) (base r : ℕ) :
    (∑ s : Fin 512, (if base + s.val = r then f s else 0))
      = if h : base ≤ r ∧ r < base + 512 then f ⟨r - base, by omega⟩ else 0 := by
  by_cases h : base ≤ r ∧ r < base + 512
  · rw [dif_pos h, Finset.sum_eq_single (⟨r - base, by omega⟩ : Fin 512)]
    · rw [if_pos]; show base + (r - base) = r; omega
    · intro s _ hs; rw [if_neg]; intro e; apply hs; apply Fin.ext; show s.val = r - base; omega
    · intro hn; exact absurd (Finset.mem_univ _) hn
  · rw [dif_neg h]; apply Finset.sum_eq_zero; intro s _; rw [if_neg]; intro e; apply h; have := s.isLt; omega

end Cert.PickSum

end
-- ==== Proof.AccKernelIdeal.lean ====
import proofs.«139204_j86354612453674_1_alg».proof.Proof.Gen.KernelIdeal.Frame
import proofs.«139204_j86354612453674_1_alg».proof.Proof.Gen.KernelIdeal.Skeleton
import Idealize.ShloMosaic.Lib.Pipeline.Kit
import Idealize.ShloMosaic.Lib.Tactic
import proofs.«139204_j86354612453674_1_alg».proof.Proof.RowKernelIdeal
import proofs.«139204_j86354612453674_1_alg».proof.Proof.PickSum
import Idealize.ShloMosaic.PureOps.Ideal.Laws
import Idealize.ShloMosaic.Lib.ValueIdx
set_option maxRecDepth 16384

noncomputable section

namespace Cert.KernelIdeal.Body
open Cert.TileMask (lane)
open Idealize.ShloMosaic.ValueIdx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## The accumulator in closed form, over the extended reals

Write `r l` for lane `l`'s entry of the row. A step adds, for each batch row and lane, the tile's elements whose
position is `r l`: at most one, and none on a tile that does not contain position `r l`. So after tile `si` of a batch
block the accumulator holds the token at position `r l` where `r l` lies in tiles `0 … si`, and zero elsewhere. -/

/-- The tokens as the region finds them. -/
abbrev toks (c : Dev nD) : S64x4097x768.Idx → EReal := V m c main_arg0

/-- The token at batch row `b`, position `p`, lane `l` (zero outside the array: never consulted there). -/
def tokAt (c : Dev nD) (b p : ℕ) (l : Fin 768) : EReal :=
  if h : b < 64 ∧ p < 4097 then toks m c (ix3 (⟨b, h.1⟩ : Fin 64) (⟨p, h.2⟩ : Fin 4097) l) else 0

/-- Lane `l`'s entry of the row, as a number. -/
abbrev rowN (c : Dev nD) (l : Fin 768) : ℕ := (rowV m c (lane l)).toNat

theorem pay1_zero : (k0_pay1 (F := Ideal)) = fun _ => (0 : EReal) := by
  unfold k0_pay1; dsimp only; rw [shapeCast_self]; funext i
  show Ideal.ofBits .f32 0x00000000#32 = 0
  exact Ideal.ofBits_zero_f32

theorem coords_facts : ∀ t : Fin cfg0.N, t.val = (grid0.coords t 0).val * 9 + (grid0.coords t 1).val
    ∧ (grid0.coords t 0).val < 8 ∧ (grid0.coords t 1).val < 9 :=
  (by decide +kernel : ∀ t : Fin grid0.N, t.val = (grid0.coords t 0).val * 9 + (grid0.coords t 1).val
    ∧ (grid0.coords t 0).val < 8 ∧ (grid0.coords t 1).val < 9)

theorem idx_facts1 : ∀ t : Fin cfg0.N, win0_1.index t 0 = (grid0.coords t 0).val ∧ win0_1.index t 1 = (grid0.coords t 1).val
    ∧ win0_1.index t 2 = 0 :=
  (by decide +kernel : ∀ t : Fin grid0.N, win0_1.index t 0 = (grid0.coords t 0).val ∧ win0_1.index t 1 = (grid0.coords t 1).val
    ∧ win0_1.index t 2 = 0)

/-- The masked tile at an element: the element where its position is its lane's row entry, zero elsewhere. -/
theorem picked_apply (t : Fin cfg0.N) (x0 : Vec Ideal S1x768 .i32) (x1 : Vec Ideal S8x512x768 .f32) (j : S8x512x768.Idx) :
    picked (grid0.coords t) x0 x1 j
      = if (grid0.coords t 1).val * 512 + (j 1).val = (x0 (lane (j 2)) : BitVec 32).toNat then x1 j else 0 := by
  obtain ⟨-, -, -, h9⟩ := xsize_facts t
  have hm : tmask (grid0.coords t) x0 j = 1#1 ↔ (grid0.coords t 1).val * 512 + (j 1).val = (x0 (lane (j 2)) : BitVec 32).toNat := by
    unfold tmask; rw [TileMask.mask_apply, TileMask.selected_iff _ h9]
  unfold picked select Scalar.select
  by_cases h : tmask (grid0.coords t) x0 j = 1
  · rw [if_pos h, if_pos (hm.mp h)]
  · rw [if_neg h, if_neg (fun e => h (hm.mpr e))]; exact Ideal.ofBits_zero_f32

set_option maxHeartbeats 1000000 in
/-- An element of the staged tile at a position of the array is that token. -/
theorem tile_inside (c : Dev nD) (t : Fin cfg0.N) (b' : Fin 8) (s : Fin 512) (l : Fin 768)
    (hin : (grid0.coords t 1).val * 512 + s.val < 4097) :
    tile m c t (ix3 b' s l) = tokAt m c ((grid0.coords t 0).val * 8 + b'.val) ((grid0.coords t 1).val * 512 + s.val) l := by
  obtain ⟨e0, e2, e1, h9⟩ := xsize_facts t
  obtain ⟨-, h8, -⟩ := coords_facts t
  obtain ⟨i0, i1, i2⟩ := idx_facts1 t
  have hb : (grid0.coords t 0).val * 8 + b'.val < 64 := by have := b'.isLt; omega
  -- the element, as an index of the part of the block inside the array
  let y : (win0_1.xblock (grid0.coords t)).Idx := fun a => match a with
    | ⟨0, _⟩ => ⟨b'.val, by show b'.val < win0_1.xsize (grid0.coords t) 0; rw [e0]; exact b'.isLt⟩
    | ⟨1, _⟩ => ⟨s.val, by show s.val < win0_1.xsize (grid0.coords t) 1; have := s.isLt; omega⟩
    | ⟨2, _⟩ => ⟨l.val, by show l.val < win0_1.xsize (grid0.coords t) 2; rw [e2]; exact l.isLt⟩
  have hy : ix3 b' s l = win0_1.xinj (grid0.coords t) y := funext fun a => Fin.ext (by
    match a with
    | ⟨0, _⟩ => rfl
    | ⟨1, _⟩ => rfl
    | ⟨2, _⟩ => rfl)
  unfold tile; rw [hy, win0_1.fill_xinj]
  unfold tokAt; rw [dif_pos ⟨hb, hin⟩]
  unfold iblk; rw [View.read_apply]
  show toks m c (((cfg0.win 1).blk t).view.emb y) = toks m c (ix3 (⟨(grid0.coords t 0).val * 8 + b'.val, hb⟩ : Fin 64) (⟨(grid0.coords t 1).val * 512 + s.val, hin⟩ : Fin 4097) l)
  refine congrArg _ (funext fun a => Fin.ext ?_)
  match a with
  | ⟨0, _⟩ => show win0_1.index t 0 * 8 + 1 * b'.val = (grid0.coords t 0).val * 8 + b'.val; rw [i0]; omega
  | ⟨1, _⟩ => show win0_1.index t 1 * 512 + 1 * s.val = (grid0.coords t 1).val * 512 + s.val; rw [i1]; omega
  | ⟨2, _⟩ => show win0_1.index t 2 * 768 + 1 * l.val = l.val; rw [i2, Nat.zero_mul, Nat.zero_add, Nat.one_mul]

/-- One step at an entry: the accumulator's entry plus the tile's selected elements of that batch row and lane. -/
theorem step_apply (c : Dev nD) (t : Fin cfg0.N) (a : Vec Ideal S8x768 .f32) (b' : Fin 8) (l : Fin 768) :
    step m c t a (ix2 b' l)
      = a (ix2 b' l) + ∑ s : Fin 512, (if (grid0.coords t 1).val * 512 + s.val = rowN m c l then tile m c t (ix3 b' s l) else 0) := by
  unfold step; rw [pay2_eq]; unfold addTile
  rw [shapeCast_self]
  show a (ix2 b' l) + multiReduction .add [1] S8x768 (picked (grid0.coords t) (iblk m c 0 t) (tile m c t)) 0x00000000#32
      reduces_S8x512x768_S8x768 (.inl rfl) rfl (ix2 b' l) = _
  refine congrArg (a (ix2 b' l) + ·) ?_
  refine (Ideal.multiReduction_add_single (picked (grid0.coords t) (iblk m c 0 t) (tile m c t)) 0x00000000#32
    reduces_S8x512x768_S8x768 (.inl rfl) rfl (ix2 b' l)).trans ?_
  show (∑ s : Fin 512, picked (grid0.coords t) (iblk m c 0 t) (tile m c t) (reduces_S8x512x768_S8x768.lift (ix2 b' l) s)) = _
  refine Finset.sum_congr rfl fun s _ => ?_
  have hl : reduces_S8x512x768_S8x768.lift (ix2 b' l) s = ix3 b' s l := funext fun a => Fin.ext (by
    match a with
    | ⟨0, _⟩ => rfl
    | ⟨1, _⟩ => rfl
    | ⟨2, _⟩ => rfl)
  rw [hl, picked_apply]
  show (if (grid0.coords t 1).val * 512 + s.val = (iblk m c 0 t (lane l) : BitVec 32).toNat then _ else 0) = _
  rw [iblk0_apply]

/-- What the accumulator holds after point `t`. -/
def accSpec (c : Dev nD) (t : Fin cfg0.N) : S8x768.Idx → EReal := fun y =>
  if rowN m c (y 1) < ((grid0.coords t 1).val + 1) * 512 then tokAt m c ((grid0.coords t 0).val * 8 + (y 0).val) (rowN m c (y 1)) (y 1) else 0

/-- One step from the closed form of the tiles before (or from zeros at tile 0) gives the closed form. -/
theorem step_spec (hR : RowsOk m) (c : Dev nD) (t : Fin cfg0.N) (a : Vec Ideal S8x768 .f32)
    (ha : ∀ (b' : Fin 8) (l : Fin 768), a (ix2 b' l)
      = if rowN m c l < (grid0.coords t 1).val * 512 then tokAt m c ((grid0.coords t 0).val * 8 + b'.val) (rowN m c l) l else 0) :
    step m c t a = accSpec m c t := by
  funext y
  obtain ⟨b', l, rfl⟩ : ∃ (b' : Fin 8) (l : Fin 768), y = ix2 b' l := ⟨y 0, y 1, eq_ix2 y⟩
  have hr : rowN m c l ≤ 4096 := by
    have := hR c t l; rw [iblk0_apply] at this; exact this
  rw [step_apply, ha, PickSum.sum_pick (fun s => tile m c t (ix3 b' s l))]
  unfold accSpec
  show _ = if rowN m c l < ((grid0.coords t 1).val + 1) * 512 then tokAt m c ((grid0.coords t 0).val * 8 + b'.val) (rowN m c l) l else 0
  by_cases h1 : rowN m c l < (grid0.coords t 1).val * 512
  · rw [if_pos h1, dif_neg (by omega), if_pos (by omega), add_zero]
  · rw [if_neg h1, zero_add]
    by_cases h2 : rowN m c l < ((grid0.coords t 1).val + 1) * 512
    · rw [dif_pos ⟨by omega, by omega⟩, if_pos h2]
      show tile m c t (ix3 b' (⟨rowN m c l - (grid0.coords t 1).val * 512, _⟩ : Fin 512) l) = _
      rw [tile_inside m c t b' _ l (by show (grid0.coords t 1).val * 512 + (rowN m c l - (grid0.coords t 1).val * 512) < 4097; omega)]
      congr 1
      show (grid0.coords t 1).val * 512 + (rowN m c l - (grid0.coords t 1).val * 512) = rowN m c l
      omega
    · rw [dif_neg (by omega), if_neg h2]

/-- The accumulator after every point, in closed form. -/
theorem acc_eq (hR : RowsOk m) (c : Dev nD) : ∀ (n : ℕ) (hn : n < cfg0.N), acc m c n hn = accSpec m c ⟨n, hn⟩
  | 0, hn => by
    obtain ⟨e, -, -⟩ := coords_facts ⟨0, hn⟩
    have e' : (0 : ℕ) = (grid0.coords ⟨0, hn⟩ 0).val * 9 + (grid0.coords ⟨0, hn⟩ 1).val := e
    show step m c ⟨0, hn⟩ (k0_pay1 (F := Ideal)) = _
    refine step_spec m hR c ⟨0, hn⟩ _ fun b' l => ?_
    rw [pay1_zero, if_neg (by omega)]
  | n + 1, hn => by
    obtain ⟨e, h8, h9⟩ := coords_facts ⟨n + 1, hn⟩
    have e' : n + 1 = (grid0.coords ⟨n + 1, hn⟩ 0).val * 9 + (grid0.coords ⟨n + 1, hn⟩ 1).val := e
    show step m c ⟨n + 1, hn⟩ (if (n + 1) % 9 = 0 then k0_pay1 (F := Ideal) else acc m c n (Nat.lt_of_succ_lt hn)) = _
    refine step_spec m hR c ⟨n + 1, hn⟩ _ fun b' l => ?_
    by_cases h0 : (n + 1) % 9 = 0
    · rw [if_pos h0, pay1_zero, if_neg (by omega)]
    · rw [if_neg h0, acc_eq hR c n (Nat.lt_of_succ_lt hn)]
      obtain ⟨f, g8, g9⟩ := coords_facts ⟨n, Nat.lt_of_succ_lt hn⟩
      have f' : n = (grid0.coords ⟨n, Nat.lt_of_succ_lt hn⟩ 0).val * 9 + (grid0.coords ⟨n, Nat.lt_of_succ_lt hn⟩ 1).val := f
      have eb : (grid0.coords ⟨n, Nat.lt_of_succ_lt hn⟩ 0).val = (grid0.coords ⟨n + 1, hn⟩ 0).val := by omega
      have es : (grid0.coords ⟨n, Nat.lt_of_succ_lt hn⟩ 1).val + 1 = (grid0.coords ⟨n + 1, hn⟩ 1).val := by omega
      unfold accSpec
      show (if rowN m c l < ((grid0.coords ⟨n, Nat.lt_of_succ_lt hn⟩ 1).val + 1) * 512
          then tokAt m c ((grid0.coords ⟨n, Nat.lt_of_succ_lt hn⟩ 0).val * 8 + b'.val) (rowN m c l) l else 0) = _
      rw [eb, es]

end Cert.KernelIdeal.Body
end
-- ==== Proof.RunKernelIdeal.lean ====
import proofs.«139204_j86354612453674_1_alg».proof.Proof.Gen.KernelIdeal.Frame
import proofs.«139204_j86354612453674_1_alg».proof.Proof.Gen.KernelIdeal.Skeleton
import Idealize.ShloMosaic.Lib.Pipeline.Kit
import Idealize.ShloMosaic.Lib.Tactic
import proofs.«139204_j86354612453674_1_alg».proof.Proof.DataKernelIdeal
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's obligation at every point, the tile's window stated on its part inside the array. -/
theorem body_obligation (hR : RowsOk m) (c : Dev nD) :
    BodyObligationLoose (dats (F := F) m 0 c) (defs₀ (F := F)) Variants.none () Set.univ := fun t => by
  rw [bigSep_W0, bigSep_W0]
  exact sound_body m hR c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the accumulator holds is forgotten. -/
theorem hout (c : Dev nD) : (dats m 0 c).Φ (Fin.last cfg0.N) ⊢ Pipeline.ΦA spec0 c := by
  have ht : (Fin.last cfg0.N).val ≠ 0 := by rw [Fin.val_last]; have : cfg0.N = 72 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

set_option backward.isDefEq.respectTransparency.types false in
/-- Every weakly fair execution of the program terminates, faulting nowhere, with the output array at what the proof data
    computes and every other array as the region found it. -/
theorem run_main (hR : RowsOk m) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m hR c) (hshare := fun c => (dats m 0 c).share_full fun _ => rfl)
    (howed := fun _ _ => rfl) (V := V m) (hmain := hmain m Variants.none) (hA := A_eq m) (hin := hin m) (hout := hout m)

/-- The frame: the program runs to the end and its two argument arrays end as they began. -/
theorem frame (hR : RowsOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hR)

end Cert.KernelIdeal.Body
end
-- ==== Proof.FinalKernelIdeal.lean ====
import proofs.«139204_j86354612453674_1_alg».proof.Proof.Gen.KernelIdeal.Frame
import proofs.«139204_j86354612453674_1_alg».proof.Proof.Gen.KernelIdeal.Skeleton
import Idealize.ShloMosaic.Lib.Pipeline.Kit
import Idealize.ShloMosaic.Lib.Tactic
import proofs.«139204_j86354612453674_1_alg».proof.Proof.AccKernelIdeal
import proofs.«139204_j86354612453674_1_alg».proof.Proof.RunKernelIdeal
set_option maxRecDepth 16384

noncomputable section

namespace Cert.KernelIdeal.Body
open Cert.TileMask (lane)
open Idealize.ShloMosaic.ValueIdx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## From the blocks to the output array

The output block of batch block `bi` is written back once, after the last tile, when the accumulator holds, for each of
its 8 batch rows and each lane `l`, the token at position `r l`. The 8 blocks are the 8 groups of 8 batch rows: together
the whole output. -/

/-- The gathered array: entry `(b, l)` is the token of batch row `b` at position `r l`, lane `l`. -/
def G (c : Dev nD) : S64x768.Idx → EReal := fun i => tokAt m c (i 0).val (rowN m c (i 1)) (i 1)

theorem idx_facts2 : ∀ t : Fin cfg0.N, win0_2.index t 0 = (grid0.coords t 0).val ∧ win0_2.index t 1 = 0
    ∧ win0_2.xsize (grid0.coords t) 0 = 8 ∧ win0_2.xsize (grid0.coords t) 1 = 768 :=
  (by decide +kernel : ∀ t : Fin grid0.N, win0_2.index t 0 = (grid0.coords t 0).val ∧ win0_2.index t 1 = 0
    ∧ win0_2.xsize (grid0.coords t) 0 = 8 ∧ win0_2.xsize (grid0.coords t) 1 = 768)

/-- What a write-back point writes is the gathered array's block there. -/
theorem flushed_eq (hR : RowsOk m) (c : Dev nD) (t : Fin cfg0.N) (hf : (cfg0.win 2).flush t = true) :
    (dats m 0 c).flushed 2 t = ((cfg0.win 2).blk t).view.read (Elt Ideal) (G m c) := by
  obtain ⟨e, h8, h9⟩ := coords_facts t
  obtain ⟨i0, i1, -, -⟩ := idx_facts2 t
  have h98 : t.val % 9 = 8 := (flush0_2 t).mp hf
  have hs : (grid0.coords t 1).val = 8 := by omega
  funext y
  rw [View.read_apply]
  show (dats m 0 c).after 2 t (win0_2.xinj (grid0.coords t) y) = G m c (((cfg0.win 2).blk t).view.emb y)
  rw [after2, acc_eq m hR c]
  have hl : ((cfg0.win 2).blk t).view.emb y 1 = win0_2.xinj (grid0.coords t) y 1 :=
    Fin.ext (by show win0_2.index t 1 * 768 + 1 * (y 1).val = (y 1).val; rw [i1]; omega)
  have hb : (((cfg0.win 2).blk t).view.emb y 0).val = (grid0.coords t 0).val * 8 + (win0_2.xinj (grid0.coords t) y 0).val := by
    show win0_2.index t 0 * 8 + 1 * (y 0).val = (grid0.coords t 0).val * 8 + (y 0).val; rw [i0]; omega
  have hr : rowN m c (win0_2.xinj (grid0.coords t) y 1) ≤ 4096 := by
    have := hR c t (win0_2.xinj (grid0.coords t) y 1); rw [iblk0_apply] at this; exact this
  unfold accSpec G
  show ((if rowN m c (win0_2.xinj (grid0.coords t) y 1) < ((grid0.coords t 1).val + 1) * 512
        then tokAt m c ((grid0.coords t 0).val * 8 + (win0_2.xinj (grid0.coords t) y 0).val) (rowN m c (win0_2.xinj (grid0.coords t) y 1))
          (win0_2.xinj (grid0.coords t) y 1)
        else 0 : EReal))
      = tokAt m c (((cfg0.win 2).blk t).view.emb y 0).val (rowN m c (((cfg0.win 2).blk t).view.emb y 1)) (((cfg0.win 2).blk t).view.emb y 1)
  rw [if_pos (by omega), hl, hb]

/-- Every entry of the output lies in the block of a write-back point. -/
theorem cover (i : S64x768.Idx) : ∃ t : Fin cfg0.N, (cfg0.win 2).flush t = true ∧ i ∈ ((cfg0.win 2).blk t).view.set := by
  have hi0 : (i 0).val < 64 := (i 0).isLt
  have hi1 : (i 1).val < 768 := (i 1).isLt
  have hN : (i 0).val / 8 * 9 + 8 < cfg0.N := by rw [show cfg0.N = 72 from N_0]; omega
  refine ⟨⟨(i 0).val / 8 * 9 + 8, hN⟩, (flush0_2 _).mpr (by show ((i 0).val / 8 * 9 + 8) % 9 = 8; omega), ?_⟩
  obtain ⟨e, h8, h9⟩ := coords_facts ⟨(i 0).val / 8 * 9 + 8, hN⟩
  obtain ⟨i0, i1, x0, x1⟩ := idx_facts2 ⟨(i 0).val / 8 * 9 + 8, hN⟩
  have e' : (i 0).val / 8 * 9 + 8 = (grid0.coords ⟨(i 0).val / 8 * 9 + 8, hN⟩ 0).val * 9 + (grid0.coords ⟨(i 0).val / 8 * 9 + 8, hN⟩ 1).val := e
  have hb : (grid0.coords ⟨(i 0).val / 8 * 9 + 8, hN⟩ 0).val = (i 0).val / 8 := by omega
  show i ∈ ((View.whole main_v3).slice (win0_2.rect ⟨(i 0).val / 8 * 9 + 8, hN⟩)).set
  rw [View.set_slice_whole, Rect.mem_set_unit]
  intro a
  match a with
  | ⟨0, _⟩ =>
    show win0_2.index ⟨(i 0).val / 8 * 9 + 8, hN⟩ 0 * 8 ≤ (i 0).val
      ∧ (i 0).val < win0_2.index ⟨(i 0).val / 8 * 9 + 8, hN⟩ 0 * 8 + win0_2.xsize (grid0.coords ⟨(i 0).val / 8 * 9 + 8, hN⟩) 0
    rw [i0, hb, x0]; omega
  | ⟨1, _⟩ =>
    show win0_2.index ⟨(i 0).val / 8 * 9 + 8, hN⟩ 1 * 768 ≤ (i 1).val
      ∧ (i 1).val < win0_2.index ⟨(i 0).val / 8 * 9 + 8, hN⟩ 1 * 768 + win0_2.xsize (grid0.coords ⟨(i 0).val / 8 * 9 + 8, hN⟩) 1
    rw [i1, x1]; omega

/-- After the run the output array is the gathered array. -/
theorem final (hR : RowsOk m) (c : Dev nD) : (dats m 0 c).arrAt 2 cfg0.N = G m c :=
  (dats m 0 c).arrAt_eq_of_cover 2 (G m c) (fun t hf => flushed_eq m hR c t hf) (cover)

/-- Every weakly fair execution terminates with the result at the gathered array and the arguments unchanged. -/
theorem run_value (hR : RowsOk m) :
    θ_run defs (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final m hR c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c)⟩)
    (run_main m ρ hR)

end Cert.KernelIdeal.Body
end
-- ==== Proof.RefValue.lean ====
import proofs.«139204_j86354612453674_1_alg».proof.Proof.Gen.ReferenceIdeal.Read
import proofs.«139204_j86354612453674_1_alg».proof.Proof.IdxRange
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-! # The reference at an entry

The reference drops position 0 of the sequence axis and gathers, for batch row `b` and lane `l`, the element at start
indices `(idx[l], l)` — each start index first wrapped if negative and then clamped into the array. For `0 ≤ idx[l] < 4096`
neither happens, so the entry is the token at position `idx[l] + 1` of lane `l`. -/

abbrev gd := gather_S64x4096x768_S768x2_S64x768_0_12_n_n_12_1_6411

/-- The start index of result entry `(b, l)` has its two components in row `l` of the start-index array. -/
theorem siIdx_eq (y : S64x768.Idx) (c : Fin gd.startIndexMap.length) :
    gd.siIdx y c = ix2 (⟨(y 1).val, (y 1).isLt⟩ : Fin 768) (⟨c.val, c.isLt⟩ : Fin 2) := by
  funext b; refine Fin.ext ?_
  match b with
  | ⟨0, _⟩ => rfl
  | ⟨1, _⟩ => rfl

/-- The gather at `(b, l)`: batch row `b`, and on the sequence and lane axes the two start indices, read signed and clamped. -/
theorem gather_apply {α : Type} (x : S64x4096x768.Idx → α) (idx : IVec S768x2 32) (y : S64x768.Idx) :
    Host.gather gd x idx y
      = x (ix3 (⟨(y 0).val, (y 0).isLt⟩ : Fin 64)
              (⟨min (idx (ix2 (⟨(y 1).val, (y 1).isLt⟩ : Fin 768) (0 : Fin 2))).toInt.toNat 4095, by omega⟩ : Fin 4096)
              (⟨min (idx (ix2 (⟨(y 1).val, (y 1).isLt⟩ : Fin 768) (1 : Fin 2))).toInt.toNat 767, by omega⟩ : Fin 768)) := by
  unfold Host.gather
  congr 1
  funext a
  refine Fin.ext ?_
  match a with
  | ⟨0, _⟩ =>
    show gd.start y idx 0 + gd.batchCoord y 0 + gd.offCoord y 0 = (y 0).val
    have hs : gd.start y idx 0 = 0 := by unfold GatherDims.start; rw [dif_neg (by decide)]
    have ho : gd.offCoord y 0 = (y 0).val := by unfold GatherDims.offCoord; rw [dif_pos (by decide)]; rfl
    rw [GatherDims.batchCoord_eq_zero _ _ _ List.not_mem_nil, hs, ho]; omega
  | ⟨1, _⟩ =>
    show gd.start y idx 1 + gd.batchCoord y 1 + gd.offCoord y 1 = min (idx (ix2 (⟨(y 1).val, (y 1).isLt⟩ : Fin 768) (0 : Fin 2))).toInt.toNat 4095
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gd.startIndexMap from by decide), siIdx_eq]
    rfl
  | ⟨2, _⟩ =>
    show gd.start y idx 2 + gd.batchCoord y 2 + gd.offCoord y 2 = min (idx (ix2 (⟨(y 1).val, (y 1).isLt⟩ : Fin 768) (1 : Fin 2))).toInt.toNat 767
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 3) ∈ gd.startIndexMap from by decide), siIdx_eq]
    rfl

/-- The same at batch row `b` and lane `l`. -/
theorem gather_at {α : Type} (x : S64x4096x768.Idx → α) (idx : IVec S768x2 32) (b : Fin 64) (l : Fin 768) :
    Host.gather gd x idx (ix2 b l)
      = x (ix3 b (⟨min (idx (ix2 l (0 : Fin 2))).toInt.toNat 4095, by omega⟩ : Fin 4096)
              (⟨min (idx (ix2 l (1 : Fin 2))).toInt.toNat 767, by omega⟩ : Fin 768)) :=
  gather_apply x idx (ix2 b l)

/-- A word below 2^31 is not negative as a signed number, -/
theorem slt_zero (w : BitVec 32) (h : w.toNat < 2 ^ 31) : IntOp.cmpi .slt w 0#32 = 0#1 := by
  unfold IntOp.cmpi
  have : w.slt 0#32 = false := by
    simp only [BitVec.slt, decide_eq_false_iff_not, not_lt]
    unfold BitVec.toInt; simp; omega
  simp [this]

/-- and read as a signed number is itself. -/
theorem toInt_toNat (w : BitVec 32) (h : w.toNat < 2 ^ 31) : w.toInt.toNat = w.toNat := by
  unfold BitVec.toInt; simp; omega

/-- A select on a false condition is its second branch. -/
theorem select_zero {α : Type} (a b : α) : Scalar.select (0#1) a b = b := by
  unfold Scalar.select; rw [if_neg (by decide)]

/-- Column 0 of the start indices: the index, unchanged when it is not negative. -/
theorem starts_col0 (x1 : (⟨S768, .i32⟩ : BufTy).Contents (Elt F)) (l : Fin 768) (h : ((x1 (ix1 l) : BitVec 32)).toNat < 4096) :
    val_main_v14 (F := F) x1 (ix2 l (0 : Fin 2)) = x1 (ix1 l) := by
  unfold val_main_v14
  rw [concatenate_pair_apply_left (t := S768x2) (s₁ := S768x1) (s₂ := S768x1) (1 : Fin 2) (val_main_v12 (F := F) x1) (val_main_v13 (F := F))
    concatenates_S768x1_S768x1_S768x2_d1 (ix2 l (0 : Fin 2)) rfl (ix2 l (0 : Fin 1))
    (fun b => by match b with | ⟨0, _⟩ => rfl | ⟨1, _⟩ => rfl)]
  rw [val_main_v12_apply, val_main_v6_apply, val_main_v3_apply, val_main_v2_apply, val_main_c_apply]
  have e : idx_main_v12 (ix2 l (0 : Fin 1)) = ix1 l := funext fun a => Fin.ext (by match a with | ⟨0, _⟩ => rfl)
  rw [e, slt_zero _ (by omega), select_zero]

/-- Column 1 of the start indices: the lane number. -/
theorem starts_col1 (x1 : (⟨S768, .i32⟩ : BufTy).Contents (Elt F)) (l : Fin 768) :
    val_main_v14 (F := F) x1 (ix2 l (1 : Fin 2)) = BitVec.ofNat 32 l.val := by
  unfold val_main_v14
  rw [concatenate_pair_apply_right (t := S768x2) (s₁ := S768x1) (s₂ := S768x1) (1 : Fin 2) (val_main_v12 (F := F) x1) (val_main_v13 (F := F))
    concatenates_S768x1_S768x1_S768x2_d1 (ix2 l (1 : Fin 2)) rfl rfl (ix2 l (0 : Fin 1))
    (fun b hb => by match b with | ⟨0, _⟩ => rfl | ⟨1, _⟩ => exact absurd rfl hb) rfl]
  rw [val_main_v13_apply, val_main_v11_apply, val_main_v8_apply, val_main_v1_apply, val_main_v7_apply, val_main_c_1_apply]
  have hl : (BitVec.ofNat 32 l.val).toNat < 2 ^ 31 := by
    rw [BitVec.toNat_ofNat]; have := l.isLt; omega
  have e : ((idx_main_v13 (ix2 l (0 : Fin 1))) 0).val = l.val := rfl
  rw [e, slt_zero _ hl, select_zero]

/-- The reference's result at `(b, l)`, for in-range indices: the token at position `idx[l] + 1`. -/
theorem ref_apply (x0 : (⟨S64x4097x768, .f32⟩ : BufTy).Contents (Elt F)) (x1 : (⟨S768, .i32⟩ : BufTy).Contents (Elt F))
    (h : ∀ l : Fin 768, ((x1 (ix1 l) : BitVec 32)).toNat < 4096) (b : Fin 64) (l : Fin 768) :
    val_main_v15 (F := F) x0 x1 (ix2 b l)
      = x0 (ix3 b (⟨((x1 (ix1 l) : BitVec 32)).toNat + 1, by have := h l; omega⟩ : Fin 4097) l) := by
  unfold val_main_v15
  rw [gather_at, val_main_v0_apply]
  have hl := h l
  have hn : (BitVec.ofNat 32 l.val).toNat = l.val := by rw [BitVec.toNat_ofNat]; have := l.isLt; omega
  refine congrArg x0 (funext fun a => Fin.ext ?_)
  match a with
  | ⟨0, _⟩ => rfl
  | ⟨1, _⟩ =>
    show 1 + min (val_main_v14 (F := F) x1 (ix2 l (0 : Fin 2))).toInt.toNat 4095 = ((x1 (ix1 l) : BitVec 32)).toNat + 1
    rw [starts_col0 x1 l hl, toInt_toNat _ (by omega)]; omega
  | ⟨2, _⟩ =>
    show min (val_main_v14 (F := F) x1 (ix2 l (1 : Fin 2))).toInt.toNat 767 = l.val
    rw [starts_col1, toInt_toNat _ (by omega), hn]; have := l.isLt; omega

end Cert.ReferenceIdeal.RefValue
end
-- ==== Proof.Bridge.lean ====
import proofs.«139204_j86354612453674_1_alg».proof.Proof.FinalKernelIdeal
import proofs.«139204_j86354612453674_1_alg».proof.Proof.RefValue

set_option maxRecDepth 16384

noncomputable section

/-! # The two results are one array

Entry `(b, l)` of the kernel's result is the token of batch row `b`, lane `l`, at the position the row holds for lane `l`,
which is `idx[l] + 1`; entry `(b, l)` of the reference's result is the token at position `idx[l] + 1` of the same row and
lane. Both read the same argument arrays. -/

namespace Cert.Bridge

open Idealize.ShloMosaic Idealize.ShloMosaic.TcCoe Idealize.SL.Sem Idealize.ShloMosaic.ValueIdx
open Cert.KernelIdeal Cert.KernelIdeal.Gen Cert.KernelIdeal.Body

theorem G_eq_ref (m : (ℓ : Loc nD τ sig) → Buf (Elt Ideal) ℓ) (c : Dev nD)
    (h : Cert.Pre_finite_inputs.fn (F := Ideal) (m ((c : Thread nD τ).loc main_arg0)) (m ((c : Thread nD τ).loc main_arg1)) = fun _ => 1#1) :
    G m c = Cert.ReferenceIdeal.Read.val_main_v15 (F := Ideal) (m ((c : Thread nD τ).loc main_arg0)) (m ((c : Thread nD τ).loc main_arg1)) := by
  funext y
  obtain ⟨b, l, rfl⟩ : ∃ (b : Fin 64) (l : Fin 768), y = ix2 b l := ⟨y 0, y 1, eq_ix2 y⟩
  have hrow := row_toNat m c h
  rw [Cert.ReferenceIdeal.RefValue.ref_apply _ _ (fun l => (hrow l).2) b l]
  unfold G tokAt
  show (if h' : b.val < 64 ∧ rowN m c l < 4097 then toks m c (ix3 (⟨b.val, h'.1⟩ : Fin 64) (⟨rowN m c l, h'.2⟩ : Fin 4097) l) else 0) = _
  rw [dif_pos ⟨b.isLt, by
    have h1 := (hrow l).1; have h2 := (hrow l).2
    show (rowV m c (Cert.TileMask.lane l)).toNat < 4097
    omega⟩]
  show (V m c main_arg0 : S64x4097x768.Idx → EReal) _ = _
  rw [V_main_arg0]
  refine congrArg _ (funext fun a => Fin.ext ?_)
  match a with
  | ⟨0, _⟩ => rfl
  | ⟨1, _⟩ => exact (hrow l).1
  | ⟨2, _⟩ => rfl

end Cert.Bridge

end
-- ==== Proof.lean ====
/- The claims of this certificate, proved.

   The kernel walks the token array `x : [64, 4097, 768]` in tiles of 8 batch rows × 512 positions, and for each batch row
   and lane adds up the elements whose position equals the lane's entry of the row `idx + 1`: one element, since a position
   occurs once. The reference drops position 0 and gathers position `idx[l]` of what is left. Under the precondition
   `0 ≤ idx[l] < 4096` both are `x[b, idx[l] + 1, l]`: no arithmetic on the tokens but additions of zero, so the equality
   holds of every extended real and the finiteness of the tokens is not used.

   The frames of the two kernel programs are the region's run over proof data that follow the accumulator point by
   point; the last sequence tile overhangs the array by 511 positions, and the precondition is what keeps those positions
   unselected. The reference's frame is its run with the result dropped. -/
import proofs.«139204_j86354612453674_1_alg».proof.Defs
import proofs.«139204_j86354612453674_1_alg».proof.Proof.Gen.Kernel
import proofs.«139204_j86354612453674_1_alg».proof.Proof.Gen.Kernel.Skeleton
import proofs.«139204_j86354612453674_1_alg».proof.Proof.Gen.Kernel.Launch
import proofs.«139204_j86354612453674_1_alg».proof.Proof.Gen.Kernel.Points
import proofs.«139204_j86354612453674_1_alg».proof.Proof.Gen.Kernel.Frame
import proofs.«139204_j86354612453674_1_alg».proof.Proof.Gen.KernelIdeal
import proofs.«139204_j86354612453674_1_alg».proof.Proof.Gen.KernelIdeal.Skeleton
import proofs.«139204_j86354612453674_1_alg».proof.Proof.Gen.KernelIdeal.Launch
import proofs.«139204_j86354612453674_1_alg».proof.Proof.Gen.KernelIdeal.Points
import proofs.«139204_j86354612453674_1_alg».proof.Proof.Gen.KernelIdeal.Frame
import proofs.«139204_j86354612453674_1_alg».proof.Proof.Gen.ReferenceIdeal
import proofs.«139204_j86354612453674_1_alg».proof.Proof.Gen.ReferenceIdeal.Run
import proofs.«139204_j86354612453674_1_alg».proof.Proof.Gen.ReferenceIdeal.Read
import proofs.«139204_j86354612453674_1_alg».proof.Proof.Gen.Pre_finite_inputs
import proofs.«139204_j86354612453674_1_alg».proof.Proof.RunKernel
import proofs.«139204_j86354612453674_1_alg».proof.Proof.RowKernel
import proofs.«139204_j86354612453674_1_alg».proof.Proof.FinalKernelIdeal
import proofs.«139204_j86354612453674_1_alg».proof.Proof.Bridge
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel := fun m ρ hpre =>
  Cert.Kernel.Body.frame m ρ (Cert.Kernel.Body.rowsOk_of_pre m hpre)

/-- So does the kernel read over the extended reals. -/
theorem frame_ki : Cert.frame_KernelIdeal := fun m ρ hpre =>
  Cert.KernelIdeal.Body.frame m ρ (Cert.KernelIdeal.Body.rowsOk_of_pre m hpre)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the two programs, run from memories that agree on the arguments, end with equal results:
    both with the gathered array. -/
theorem algebraic : Cert.algebraic_KernelIdeal_ReferenceIdeal := by
  intro m ρ m' ρ' hpre hagree
  have hR := Cert.KernelIdeal.Body.rowsOk_of_pre m hpre
  refine ⟨fun c => Cert.KernelIdeal.Body.G m c, Cert.KernelIdeal.Body.run_value m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  exact (Cert.Bridge.G_eq_ref m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
